-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg22 : FVec F S64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg19 : FVec F S64x64 .f32) (main_arg20 : FVec F S64 .f32) (main_arg21 : FVec F S64x64 .f32) (main_arg22 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg21
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩

abbrev nBuf : Space → Nat
  | .hbm => 117
  | .vmem => 63
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S1x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S1x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S50000x64, .f32⟩
  | .hbm, ⟨83, _⟩ => ⟨S800000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S1x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x64, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x64, .f32⟩
  | .hbm, ⟨110, _⟩ => ⟨S800000x64, .f32⟩
  | .hbm, ⟨111, _⟩ => ⟨S_, .f32⟩
  | .hbm, ⟨112, _⟩ => ⟨S50000x64, .f32⟩
  | .hbm, ⟨113, _⟩ => ⟨S800000x1, .i32⟩
  | .hbm, ⟨114, _⟩ => ⟨S50000x64, .f32⟩
  | .hbm, ⟨115, _⟩ => ⟨S1x64, .f32⟩
  | .hbm, ⟨116, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6_0 : Ref sig .tc := ⟨.hbm, 29, rfl⟩
abbrev main_v6_1 : Ref sig .tc := ⟨.hbm, 30, rfl⟩
abbrev main_v6_2 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29_0 : Ref sig .tc := ⟨.hbm, 59, rfl⟩
abbrev main_v29_1 : Ref sig .tc := ⟨.hbm, 60, rfl⟩
abbrev main_v29_2 : Ref sig .tc := ⟨.hbm, 61, rfl⟩
abbrev main_c_3 : Ref sig .tc := ⟨.hbm, 62, rfl⟩
abbrev main_v30 : Ref sig .tc := ⟨.hbm, 63, rfl⟩
abbrev main_v31 : Ref sig .tc := ⟨.hbm, 64, rfl⟩
abbrev main_c_4 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_5 : Ref sig .tc := ⟨.hbm, 71, rfl⟩
abbrev main_v37 : Ref sig .tc := ⟨.hbm, 72, rfl⟩
abbrev main_v38 : Ref sig .tc := ⟨.hbm, 73, rfl⟩
abbrev main_c_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52_0 : Ref sig .tc := ⟨.hbm, 89, rfl⟩
abbrev main_v52_1 : Ref sig .tc := ⟨.hbm, 90, rfl⟩
abbrev main_v52_2 : Ref sig .tc := ⟨.hbm, 91, rfl⟩
abbrev main_c_8 : Ref sig .tc := ⟨.hbm, 92, rfl⟩
abbrev main_v53 : Ref sig .tc := ⟨.hbm, 93, rfl⟩
abbrev main_v54 : Ref sig .tc := ⟨.hbm, 94, rfl⟩
abbrev main_c_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_10 : Ref sig .tc := ⟨.hbm, 101, rfl⟩
abbrev main_v60 : Ref sig .tc := ⟨.hbm, 102, rfl⟩
abbrev main_v61 : Ref sig .tc := ⟨.hbm, 103, rfl⟩
abbrev main_c_11 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc4_stg7_0 : Ref sig .tc := ⟨.vmem, 51, rfl⟩
abbrev cc4_stg7_1 : Ref sig .tc := ⟨.vmem, 52, rfl⟩
abbrev cc4_stg8_0 : Ref sig .tc := ⟨.vmem, 53, rfl⟩
abbrev cc4_stg8_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg4_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem6_1 : DmaSem sig := 50
abbrev cc4_sem7_0 : DmaSem sig := 51
abbrev cc4_sem7_1 : DmaSem sig := 52
abbrev cc4_sem8_0 : DmaSem sig := 53
abbrev cc4_sem8_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem4_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S50000x64.size a
  hwx2_8 : ∀ i : grid2.Coords, EltTy.bits .f32 = 32 ∨ (Rect.block (s := S50000x64) S5000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S50000x64.size a
  hwx4_7 : ∀ i : grid4.Coords, EltTy.bits .f32 = 32 ∨ (Rect.block (s := S50000x64) S5000x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S50000x64.size a
  hwx4_8 : ∀ i : grid4.Coords, EltTy.bits .f32 = 32 ∨ (Rect.block (s := S50000x64) S5000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v29_1) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_2) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_2) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v52_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v52_1) S5000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v52_2) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v70) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52_2) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩

abbrev nBuf : Space → Nat
  | .hbm => 147
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S64, .f32⟩
  | 23 => ⟨S1x800000, .i32⟩
  | 24 => ⟨S800000, .i32⟩
  | 25 => ⟨S1x800000, .i32⟩
  | 26 => ⟨S800000, .i32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S50000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S1x64, .f32⟩
  | 109 => ⟨S50000x64, .f32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call0_cst : Ref sig .tc := ⟨.hbm, 64, rfl⟩
abbrev main_call0_v0 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_3 : Ref sig .tc := ⟨.hbm, 72, rfl⟩
abbrev main_v42 : Ref sig .tc := ⟨.hbm, 73, rfl⟩
abbrev main_v43 : Ref sig .tc := ⟨.hbm, 74, rfl⟩
abbrev main_c_4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_5 : Ref sig .tc := ⟨.hbm, 81, rfl⟩
abbrev main_v49 : Ref sig .tc := ⟨.hbm, 82, rfl⟩
abbrev main_v50 : Ref sig .tc := ⟨.hbm, 83, rfl⟩
abbrev main_c_6 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call1_cst : Ref sig .tc := ⟨.hbm, 104, rfl⟩
abbrev main_call1_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_8 : Ref sig .tc := ⟨.hbm, 112, rfl⟩
abbrev main_v75 : Ref sig .tc := ⟨.hbm, 113, rfl⟩
abbrev main_v76 : Ref sig .tc := ⟨.hbm, 114, rfl⟩
abbrev main_c_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_10 : Ref sig .tc := ⟨.hbm, 121, rfl⟩
abbrev main_v82 : Ref sig .tc := ⟨.hbm, 122, rfl⟩
abbrev main_v83 : Ref sig .tc := ⟨.hbm, 123, rfl⟩
abbrev main_c_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_12 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call2_cst : Ref sig .tc := ⟨.hbm, 144, rfl⟩
abbrev main_call2_v0 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result kept.

  The six tiled regions and the host operations between them run in order from the launch memory; the
  buffer contents at the twelve boundaries are a fold from the launch contents, and every unscoped buffer
  ends at the last boundary's contents. Read here at the result buffer as well as at the arguments:
  every weakly fair execution terminates without a fault, the result buffer holds the last boundary's
  contents at it, and the argument arrays are as launched.
-/
import proofs.«114584_j80015240725026_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, read at the result buffer too: it ends at the last boundary's contents there. -/
theorem run_result : θ_run defs (onTc (τ := τ) (main (F := F))) ⟨m, fun _ => 0, ρ⟩ (fun r => ∀ c : Dev nD,
      r.2.mem ((c.tc : Thread nD τ).loc main_v72) = W12 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v72 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c)⟩)

end Cert.KernelIdeal.Result

end
-- ==== Proof.Layer.lean ====
/-
  One layer of the network, as three whole-array functions over the extended reals, index by index.

  A node array is 50000 rows of 64 features. Each layer first takes three images of the node array
  under 64×64 matrices — two of them with a bias row added —, then, after the edge step has summed
  messages into an aggregate, adds the aggregate to the third image, applies a fourth matrix and bias,
  and clips below at zero. Written here are the two matrix steps: entry (r, j) of a product is the
  sum over the 64 shared features k of x (r, k) · w (k, j). Nothing here depends on how a program
  tiles the rows or in which order it adds the 64 terms.
-/
import Idealize.ShloMosaic.PureOps.Ideal
import Idealize.ShloMosaic.Lib.ValueIdx

noncomputable section

open scoped BigOperators

namespace Cert.Layer

open Idealize.ShloMosaic Idealize.ShloMosaic.ValueIdx

/-- A node array: 50000 rows, 64 features. -/
abbrev Nodes : Shape := ⟨2, ![50000, 64]⟩
/-- A weight matrix: 64 input features by 64 output features. -/
abbrev Square : Shape := ⟨2, ![64, 64]⟩
/-- A bias, as a row of 64. -/
abbrev Row : Shape := ⟨2, ![1, 64]⟩

/-- The node array times a weight matrix: entry (r, j) is the sum over k of x (r, k) · w (k, j). -/
def linear (x : FVec Ideal Nodes .f32) (w : FVec Ideal Square .f32) : FVec Ideal Nodes .f32 :=
  fun i => ∑ k : Fin 64, x (ix2 (i 0) k) * w (ix2 k (i 1))

/-- The same product with the bias row added to every row. -/
def affine (x : FVec Ideal Nodes .f32) (w : FVec Ideal Square .f32) (b : FVec Ideal Row .f32) :
    FVec Ideal Nodes .f32 :=
  fun i => (∑ k : Fin 64, x (ix2 (i 0) k) * w (ix2 k (i 1))) + b (ix2 (0 : Fin 1) (i 1))

/-- The layer's last step: the aggregate plus the root image, times a weight matrix, plus the bias
    row, clipped below at zero (the zero kept as its bit pattern: both programs spell it so). -/
def update (agg root : FVec Ideal Nodes .f32) (w : FVec Ideal Square .f32) (b : FVec Ideal Row .f32) :
    FVec Ideal Nodes .f32 :=
  fun i => max ((∑ k : Fin 64, (agg (ix2 (i 0) k) + root (ix2 (i 0) k)) * w (ix2 k (i 1)))
    + b (ix2 (0 : Fin 1) (i 1))) (Ideal.ofBits .f32 0x00000000#32)

end Cert.Layer

end
-- ==== Proof.Net.lean ====
/-
  The three-layer network as one function of the argument arrays.

  The edge step of a layer is kept as the host operations spell it: the two rows of the edge list are
  its sources and destinations; an index below zero is moved up by the number of nodes; row src e of
  the first image minus row dst e of the second is message e; the messages are summed into the
  aggregate at their destinations, starting from zero. A layer is the two matrix steps of
  `Cert.Layer` around that edge step, and the network is three layers, each with its own seven
  parameter arrays, all on one edge list. A bias enters a layer as a row.
-/
import proofs.«114584_j80015240725026_1_alg».proof.Proof.Gen.ReferenceIdeal
import proofs.«114584_j80015240725026_1_alg».proof.Proof.Layer

noncomputable section

namespace Cert.Net

open Idealize.ShloMosaic Cert.ReferenceIdeal Cert.ReferenceIdeal.Facts₀ Cert.ReferenceIdeal.Facts

/-- The edges' sources: row 0 of the edge list. -/
def srcOf (ei : IVec S2x800000 32) : IVec S800000 32 :=
  shapeCast _ (extractStridedSlice S1x800000 ![0, 0] ei slices_S2x800000_S1x800000_0_0) shapeCasts_S1x800000_S800000

/-- The edges' destinations: row 1 of the edge list. -/
def dstOf (ei : IVec S2x800000 32) : IVec S800000 32 :=
  shapeCast _ (extractStridedSlice S1x800000 ![1, 0] ei slices_S2x800000_S1x800000_1_0) shapeCasts_S1x800000_S800000

/-- Node indices as the row lookup takes them: a negative index moved up by 50000, then one index per edge as a column. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The edge step: message e is row src e of `a` minus row dst e of `b`; the aggregate sums the messages at their destinations from zero. -/
def edge (a b : FVec Ideal S50000x64 .f32) (ei : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstOf ei))
    (subf (Host.gather gather_S50000x64_S800000x1_S800000x64_1_0_n_n_0_1_164 a (wrap (srcOf ei)))
      (Host.gather gather_S50000x64_S800000x1_S800000x64_1_0_n_n_0_1_164 b (wrap (dstOf ei))))

/-- A bias of 64 as a row. -/
def row (b : FVec Ideal S64 .f32) : FVec Ideal S1x64 .f32 := broadcastInDim S1x64 ![1] bcast_S64_S1x64_1 b

/-- One layer. -/
def layer (x : FVec Ideal S50000x64 .f32) (ei : IVec S2x800000 32)
    (w1 : FVec Ideal S64x64 .f32) (b1 : FVec Ideal S64 .f32) (w2 w3 : FVec Ideal S64x64 .f32) (b3 : FVec Ideal S64 .f32)
    (wl : FVec Ideal S64x64 .f32) (bl : FVec Ideal S64 .f32) : FVec Ideal S50000x64 .f32 :=
  Cert.Layer.update (edge (Cert.Layer.affine x w1 (row b1)) (Cert.Layer.linear x w2) ei)
    (Cert.Layer.affine x w3 (row b3)) wl (row bl)

end Cert.Net

end
-- ==== Proof.KernelNet1.lean ====
/-
  Layer 1 of the idealized kernel's run, read buffer by buffer through the boundaries between its segments.

  The opening host operations cut the edge list into its sources and destinations and lay two biases out as rows.
  The layer's first tiled region leaves the three images of the node array — each a whole-array function of the region's
  entry contents, which is what the hypotheses on the regions say —; the host operations after it are the edge step on the
  first two images and lay the third bias out as a row; the second tiled region leaves the layer's result. A buffer that a
  segment does not write is read back through it unchanged: a region leaves every buffer that is not one of its arrays
  as entered, a stretch of host operations every buffer none of them writes. So the layer's result buffer holds
  `Cert.Net.layer` of the layer's start array, the edge list and the layer's seven parameter arrays as launched.
-/
import proofs.«114584_j80015240725026_1_alg».proof.Proof.Gen.KernelIdeal.Frame
import proofs.«114584_j80015240725026_1_alg».proof.Proof.Net
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen

/-- A bias of 64 reshaped to one row of 64 is the bias as a row: entry (0, j) of either is entry j of the bias. -/
theorem reshape_row (b : FVec Ideal S64 .f32) (h : S64.ShapeCasts S1x64) : shapeCast S1x64 b h = Cert.Net.row b := by
  funext j
  unfold Cert.Net.row
  refine (shapeCast_addUnit_apply ![64] b h j).trans ?_
  refine (broadcastInDim_apply _ _ b j (fun a => j a.succ) ?_).symm
  intro a
  match a with
  | ⟨0, _⟩ => rfl

variable (m : (ℓ : Loc nD τ sig) → Buf (Elt Ideal) ℓ) (ρ : Dev nD → PrngReg) (c : Dev nD)

-- what each of the layer's two regions leaves, as a function of the region's entry contents
variable
  (hA0 : ∀ (V : (c : Dev nD) → (b : Ref sig .tc) → Buf (Elt Ideal) ((c : Thread nD τ).loc b)) (c : Dev nD), (dat0 (F := Ideal) V c).arrAt 6 cfg0.N = Cert.Layer.affine (V c (Pipeline.arrRef spec0 0)) (V c (Pipeline.arrRef spec0 1)) (V c (Pipeline.arrRef spec0 2)))
  (hB0 : ∀ (V : (c : Dev nD) → (b : Ref sig .tc) → Buf (Elt Ideal) ((c : Thread nD τ).loc b)) (c : Dev nD), (dat0 (F := Ideal) V c).arrAt 7 cfg0.N = Cert.Layer.linear (V c (Pipeline.arrRef spec0 0)) (V c (Pipeline.arrRef spec0 3)))
  (hR0 : ∀ (V : (c : Dev nD) → (b : Ref sig .tc) → Buf (Elt Ideal) ((c : Thread nD τ).loc b)) (c : Dev nD), (dat0 (F := Ideal) V c).arrAt 8 cfg0.N = Cert.Layer.affine (V c (Pipeline.arrRef spec0 0)) (V c (Pipeline.arrRef spec0 4)) (V c (Pipeline.arrRef spec0 5)))
  (hH1 : ∀ (V : (c : Dev nD) → (b : Ref sig .tc) → Buf (Elt Ideal) ((c : Thread nD τ).loc b)) (c : Dev nD), (dat1 (F := Ideal) V c).arrAt 4 cfg1.N = Cert.Layer.update (V c (Pipeline.arrRef spec1 0)) (V c (Pipeline.arrRef spec1 1)) (V c (Pipeline.arrRef spec1 2)) (V c (Pipeline.arrRef spec1 3)))

theorem W1_main_arg0 : W1 m ρ c (Proc.devRef .tc main_arg0) = (m ((c : Thread nD τ).loc main_arg0)) := by
  show StableHlo.after hostOps0 (W0 m ρ c) (Proc.devRef .tc main_arg0) = _
  after_results
theorem W1_main_arg2 : W1 m ρ c (Proc.devRef .tc main_arg2) = (m ((c : Thread nD τ).loc main_arg2)) := by
  show StableHlo.after hostOps0 (W0 m ρ c) (Proc.devRef .tc main_arg2) = _
  after_results
theorem W1_main_arg4 : W1 m ρ c (Proc.devRef .tc main_arg4) = (m ((c : Thread nD τ).loc main_arg4)) := by
  show StableHlo.after hostOps0 (W0 m ρ c) (Proc.devRef .tc main_arg4) = _
  after_results
theorem W1_main_arg5 : W1 m ρ c (Proc.devRef .tc main_arg5) = (m ((c : Thread nD τ).loc main_arg5)) := by
  show StableHlo.after hostOps0 (W0 m ρ c) (Proc.devRef .tc main_arg5) = _
  after_results
theorem W1_main_v4 : W1 m ρ c (Proc.devRef .tc main_v4) = Cert.Net.row (m ((c : Thread nD τ).loc main_arg3)) := by
  show StableHlo.after hostOps0 (W0 m ρ c) (Proc.devRef .tc main_v4) = _
  after_results
  exact reshape_row (m ((c : Thread nD τ).loc main_arg3)) _
theorem W1_main_v5 : W1 m ρ c (Proc.devRef .tc main_v5) = Cert.Net.row (m ((c : Thread nD τ).loc main_arg6)) := by
  show StableHlo.after hostOps0 (W0 m ρ c) (Proc.devRef .tc main_v5) = _
  after_results
  exact reshape_row (m ((c : Thread nD τ).loc main_arg6)) _
include hA0 in
theorem W2_main_v6_0 : W2 m ρ c (Proc.devRef .tc main_v6_0) = Cert.Layer.affine (m ((c : Thread nD τ).loc main_arg0)) (m ((c : Thread nD τ).loc main_arg2)) (Cert.Net.row (m ((c : Thread nD τ).loc main_arg3))) := by
  refine (W2_arr m ρ c 6).trans ((hA0 (V1 m ρ) c).trans ?_)
  show Cert.Layer.affine (W1 m ρ c (Proc.devRef .tc main_arg0)) (W1 m ρ c (Proc.devRef .tc main_arg2)) (W1 m ρ c (Proc.devRef .tc main_v4)) = _
  rw [W1_main_arg0, W1_main_arg2, W1_main_v4]
include hB0 in
theorem W2_main_v6_1 : W2 m ρ c (Proc.devRef .tc main_v6_1) = Cert.Layer.linear (m ((c : Thread nD τ).loc main_arg0)) (m ((c : Thread nD τ).loc main_arg4)) := by
  refine (W2_arr m ρ c 7).trans ((hB0 (V1 m ρ) c).trans ?_)
  show Cert.Layer.linear (W1 m ρ c (Proc.devRef .tc main_arg0)) (W1 m ρ c (Proc.devRef .tc main_arg4)) = _
  rw [W1_main_arg0, W1_main_arg4]
include hR0 in
theorem W2_main_v6_2 : W2 m ρ c (Proc.devRef .tc main_v6_2) = Cert.Layer.affine (m ((c : Thread nD τ).loc main_arg0)) (m ((c : Thread nD τ).loc main_arg5)) (Cert.Net.row (m ((c : Thread nD τ).loc main_arg6))) := by
  refine (W2_arr m ρ c 8).trans ((hR0 (V1 m ρ) c).trans ?_)
  show Cert.Layer.affine (W1 m ρ c (Proc.devRef .tc main_arg0)) (W1 m ρ c (Proc.devRef .tc main_arg5)) (W1 m ρ c (Proc.devRef .tc main_v5)) = _
  rw [W1_main_arg0, W1_main_arg5, W1_main_v5]
theorem W2_main_v1 : W2 m ρ c (Proc.devRef .tc main_v1) = Cert.Net.srcOf (m ((c : Thread nD τ).loc main_arg1)) := by
  rw [W2_of_ne m ρ c main_v1 (by decide)]
  show StableHlo.after hostOps0 (W0 m ρ c) (Proc.devRef .tc main_v1) = _
  after_results
  all_goals rfl
theorem W2_main_v3 : W2 m ρ c (Proc.devRef .tc main_v3) = Cert.Net.dstOf (m ((c : Thread nD τ).loc main_arg1)) := by
  rw [W2_of_ne m ρ c main_v3 (by decide)]
  show StableHlo.after hostOps0 (W0 m ρ c) (Proc.devRef .tc main_v3) = _
  after_results
  all_goals rfl
set_option maxHeartbeats 4000000 in
theorem W3_main_v24 : W3 m ρ c (Proc.devRef .tc main_v24) = Cert.Net.edge (W2 m ρ c (Proc.devRef .tc main_v6_0)) (W2 m ρ c (Proc.devRef .tc main_v6_1)) (m ((c : Thread nD τ).loc main_arg1)) := by
  show StableHlo.after hostOps1 (W2 m ρ c) (Proc.devRef .tc main_v24) = _
  after_results_simp
  rw [W2_main_v1, W2_main_v3]
  rfl
theorem W3_main_v6_2 : W3 m ρ c (Proc.devRef .tc main_v6_2) = W2 m ρ c (Proc.devRef .tc main_v6_2) := by
  show StableHlo.after hostOps1 (W2 m ρ c) (Proc.devRef .tc main_v6_2) = _
  after_results
theorem W3_main_arg7 : W3 m ρ c (Proc.devRef .tc main_arg7) = (m ((c : Thread nD τ).loc main_arg7)) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem W2_main_arg8 : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results
theorem W3_main_v25 : W3 m ρ c (Proc.devRef .tc main_v25) = Cert.Net.row (m ((c : Thread nD τ).loc main_arg8)) := by
  show StableHlo.after hostOps1 (W2 m ρ c) (Proc.devRef .tc main_v25) = _
  after_results
  rw [W2_main_arg8]
  exact reshape_row (m ((c : Thread nD τ).loc main_arg8)) _
include hA0 hB0 hR0 hH1 in
theorem W4_main_v26 : W4 m ρ c (Proc.devRef .tc main_v26) = Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ((hH1 (V3 m ρ) c).trans ?_)
  show Cert.Layer.update (W3 m ρ c (Proc.devRef .tc main_v24)) (W3 m ρ c (Proc.devRef .tc main_v6_2)) (W3 m ρ c (Proc.devRef .tc main_arg7)) (W3 m ρ c (Proc.devRef .tc main_v25)) = _
  rw [W3_main_v24, W3_main_v6_2, W3_main_arg7, W3_main_v25, W2_main_v6_0 m ρ c hA0, W2_main_v6_1 m ρ c hB0, W2_main_v6_2 m ρ c hR0]
  rfl

end Cert.KernelIdeal.Chain

end
-- ==== Proof.KernelNet2.lean ====
/-
  Layer 2 of the idealized kernel's run, read buffer by buffer through the boundaries between its segments.

  The host operations before the layer lay two biases out as rows; the node array the layer starts from is the previous layer's result.
  The layer's first tiled region leaves the three images of the node array — each a whole-array function of the region's
  entry contents, which is what the hypotheses on the regions say —; the host operations after it are the edge step on the
  first two images and lay the third bias out as a row; the second tiled region leaves the layer's result. A buffer that a
  segment does not write is read back through it unchanged: a region leaves every buffer that is not one of its arrays
  as entered, a stretch of host operations every buffer none of them writes. So the layer's result buffer holds
  `Cert.Net.layer` of the layer's start array, the edge list and the layer's seven parameter arrays as launched.
-/
import proofs.«114584_j80015240725026_1_alg».proof.Proof.Gen.KernelIdeal.Frame
import proofs.«114584_j80015240725026_1_alg».proof.Proof.Net
import proofs.«114584_j80015240725026_1_alg».proof.Proof.KernelNet1
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

-- what each of the layer's two regions leaves, as a function of the region's entry contents
variable
  (hA2 : ∀ (V : (c : Dev nD) → (b : Ref sig .tc) → Buf (Elt Ideal) ((c : Thread nD τ).loc b)) (c : Dev nD), (dat2 (F := Ideal) V c).arrAt 6 cfg2.N = Cert.Layer.affine (V c (Pipeline.arrRef spec2 0)) (V c (Pipeline.arrRef spec2 1)) (V c (Pipeline.arrRef spec2 2)))
  (hB2 : ∀ (V : (c : Dev nD) → (b : Ref sig .tc) → Buf (Elt Ideal) ((c : Thread nD τ).loc b)) (c : Dev nD), (dat2 (F := Ideal) V c).arrAt 7 cfg2.N = Cert.Layer.linear (V c (Pipeline.arrRef spec2 0)) (V c (Pipeline.arrRef spec2 3)))
  (hR2 : ∀ (V : (c : Dev nD) → (b : Ref sig .tc) → Buf (Elt Ideal) ((c : Thread nD τ).loc b)) (c : Dev nD), (dat2 (F := Ideal) V c).arrAt 8 cfg2.N = Cert.Layer.affine (V c (Pipeline.arrRef spec2 0)) (V c (Pipeline.arrRef spec2 4)) (V c (Pipeline.arrRef spec2 5)))
  (hH3 : ∀ (V : (c : Dev nD) → (b : Ref sig .tc) → Buf (Elt Ideal) ((c : Thread nD τ).loc b)) (c : Dev nD), (dat3 (F := Ideal) V c).arrAt 4 cfg3.N = Cert.Layer.update (V c (Pipeline.arrRef spec3 0)) (V c (Pipeline.arrRef spec3 1)) (V c (Pipeline.arrRef spec3 2)) (V c (Pipeline.arrRef spec3 3)))

theorem W5_main_v26 : W5 m ρ c (Proc.devRef .tc main_v26) = W4 m ρ c (Proc.devRef .tc main_v26) := by
  show StableHlo.after hostOps2 (W4 m ρ c) (Proc.devRef .tc main_v26) = _
  after_results
set_option maxHeartbeats 4000000 in
theorem W5_main_arg9 : W5 m ρ c (Proc.devRef .tc main_arg9) = (m ((c : Thread nD τ).loc main_arg9)) := by
  show StableHlo.after hostOps2 (W4 m ρ c) (Proc.devRef .tc main_arg9) = _
  after_results
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
set_option maxHeartbeats 4000000 in
theorem W5_main_arg11 : W5 m ρ c (Proc.devRef .tc main_arg11) = (m ((c : Thread nD τ).loc main_arg11)) := by
  show StableHlo.after hostOps2 (W4 m ρ c) (Proc.devRef .tc main_arg11) = _
  after_results
  rw [W4_of_ne m ρ c main_arg11 (by decide)]
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results
set_option maxHeartbeats 4000000 in
theorem W5_main_arg12 : W5 m ρ c (Proc.devRef .tc main_arg12) = (m ((c : Thread nD τ).loc main_arg12)) := by
  show StableHlo.after hostOps2 (W4 m ρ c) (Proc.devRef .tc main_arg12) = _
  after_results
  rw [W4_of_ne m ρ c main_arg12 (by decide)]
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results
set_option maxHeartbeats 4000000 in
theorem W4_main_arg10 : W4 m ρ c (Proc.devRef .tc main_arg10) = (m ((c : Thread nD τ).loc main_arg10)) := by
  rw [W4_of_ne m ρ c main_arg10 (by decide)]
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results
theorem W5_main_v27 : W5 m ρ c (Proc.devRef .tc main_v27) = Cert.Net.row (m ((c : Thread nD τ).loc main_arg10)) := by
  show StableHlo.after hostOps2 (W4 m ρ c) (Proc.devRef .tc main_v27) = _
  after_results
  rw [W4_main_arg10]
  exact reshape_row (m ((c : Thread nD τ).loc main_arg10)) _
set_option maxHeartbeats 4000000 in
theorem W4_main_arg13 : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results
theorem W5_main_v28 : W5 m ρ c (Proc.devRef .tc main_v28) = Cert.Net.row (m ((c : Thread nD τ).loc main_arg13)) := by
  show StableHlo.after hostOps2 (W4 m ρ c) (Proc.devRef .tc main_v28) = _
  after_results
  rw [W4_main_arg13]
  exact reshape_row (m ((c : Thread nD τ).loc main_arg13)) _
include hA2 in
theorem W6_main_v29_0 : W6 m ρ c (Proc.devRef .tc main_v29_0) = Cert.Layer.affine (W4 m ρ c (Proc.devRef .tc main_v26)) (m ((c : Thread nD τ).loc main_arg9)) (Cert.Net.row (m ((c : Thread nD τ).loc main_arg10))) := by
  refine (W6_arr m ρ c 6).trans ((hA2 (V5 m ρ) c).trans ?_)
  show Cert.Layer.affine (W5 m ρ c (Proc.devRef .tc main_v26)) (W5 m ρ c (Proc.devRef .tc main_arg9)) (W5 m ρ c (Proc.devRef .tc main_v27)) = _
  rw [W5_main_v26, W5_main_arg9, W5_main_v27]
include hB2 in
theorem W6_main_v29_1 : W6 m ρ c (Proc.devRef .tc main_v29_1) = Cert.Layer.linear (W4 m ρ c (Proc.devRef .tc main_v26)) (m ((c : Thread nD τ).loc main_arg11)) := by
  refine (W6_arr m ρ c 7).trans ((hB2 (V5 m ρ) c).trans ?_)
  show Cert.Layer.linear (W5 m ρ c (Proc.devRef .tc main_v26)) (W5 m ρ c (Proc.devRef .tc main_arg11)) = _
  rw [W5_main_v26, W5_main_arg11]
include hR2 in
theorem W6_main_v29_2 : W6 m ρ c (Proc.devRef .tc main_v29_2) = Cert.Layer.affine (W4 m ρ c (Proc.devRef .tc main_v26)) (m ((c : Thread nD τ).loc main_arg12)) (Cert.Net.row (m ((c : Thread nD τ).loc main_arg13))) := by
  refine (W6_arr m ρ c 8).trans ((hR2 (V5 m ρ) c).trans ?_)
  show Cert.Layer.affine (W5 m ρ c (Proc.devRef .tc main_v26)) (W5 m ρ c (Proc.devRef .tc main_arg12)) (W5 m ρ c (Proc.devRef .tc main_v28)) = _
  rw [W5_main_v26, W5_main_arg12, W5_main_v28]
set_option maxHeartbeats 4000000 in
theorem W6_main_v1 : W6 m ρ c (Proc.devRef .tc main_v1) = Cert.Net.srcOf (m ((c : Thread nD τ).loc main_arg1)) := by
  rw [W6_of_ne m ρ c main_v1 (by decide)]
  show StableHlo.after hostOps2 (W4 m ρ c) (Proc.devRef .tc main_v1) = _
  after_results
  rw [W4_of_ne m ρ c main_v1 (by decide)]
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  all_goals rfl
set_option maxHeartbeats 4000000 in
theorem W6_main_v3 : W6 m ρ c (Proc.devRef .tc main_v3) = Cert.Net.dstOf (m ((c : Thread nD τ).loc main_arg1)) := by
  rw [W6_of_ne m ρ c main_v3 (by decide)]
  show StableHlo.after hostOps2 (W4 m ρ c) (Proc.devRef .tc main_v3) = _
  after_results
  rw [W4_of_ne m ρ c main_v3 (by decide)]
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  all_goals rfl
set_option maxHeartbeats 4000000 in
theorem W7_main_v47 : W7 m ρ c (Proc.devRef .tc main_v47) = Cert.Net.edge (W6 m ρ c (Proc.devRef .tc main_v29_0)) (W6 m ρ c (Proc.devRef .tc main_v29_1)) (m ((c : Thread nD τ).loc main_arg1)) := by
  show StableHlo.after hostOps3 (W6 m ρ c) (Proc.devRef .tc main_v47) = _
  after_results_simp
  rw [W6_main_v1, W6_main_v3]
  rfl
theorem W7_main_v29_2 : W7 m ρ c (Proc.devRef .tc main_v29_2) = W6 m ρ c (Proc.devRef .tc main_v29_2) := by
  show StableHlo.after hostOps3 (W6 m ρ c) (Proc.devRef .tc main_v29_2) = _
  after_results
set_option maxHeartbeats 4000000 in
theorem W7_main_arg14 : W7 m ρ c (Proc.devRef .tc main_arg14) = (m ((c : Thread nD τ).loc main_arg14)) := by
  show StableHlo.after hostOps3 (W6 m ρ c) (Proc.devRef .tc main_arg14) = _
  after_results
  rw [W6_of_ne m ρ c main_arg14 (by decide)]
  show StableHlo.after hostOps2 (W4 m ρ c) (Proc.devRef .tc main_arg14) = _
  after_results
  rw [W4_of_ne m ρ c main_arg14 (by decide)]
  show StableHlo.after hostOps1 (W2 m ρ c) (Proc.devRef .tc main_arg14) = _
  after_results
  rw [W2_of_ne m ρ c main_arg14 (by decide)]
  show StableHlo.after hostOps0 (W0 m ρ c) (Proc.devRef .tc main_arg14) = _
  after_results
set_option maxHeartbeats 4000000 in
theorem W6_main_arg15 : W6 m ρ c (Proc.devRef .tc main_arg15) = (m ((c : Thread nD τ).loc main_arg15)) := by
  rw [W6_of_ne m ρ c main_arg15 (by decide)]
  show StableHlo.after hostOps2 (W4 m ρ c) (Proc.devRef .tc main_arg15) = _
  after_results
  rw [W4_of_ne m ρ c main_arg15 (by decide)]
  show StableHlo.after hostOps1 (W2 m ρ c) (Proc.devRef .tc main_arg15) = _
  after_results
  rw [W2_of_ne m ρ c main_arg15 (by decide)]
  show StableHlo.after hostOps0 (W0 m ρ c) (Proc.devRef .tc main_arg15) = _
  after_results
theorem W7_main_v48 : W7 m ρ c (Proc.devRef .tc main_v48) = Cert.Net.row (m ((c : Thread nD τ).loc main_arg15)) := by
  show StableHlo.after hostOps3 (W6 m ρ c) (Proc.devRef .tc main_v48) = _
  after_results
  rw [W6_main_arg15]
  exact reshape_row (m ((c : Thread nD τ).loc main_arg15)) _
include hA2 hB2 hR2 hH3 in
theorem W8_main_v49 : W8 m ρ c (Proc.devRef .tc main_v49) = Cert.Net.layer (W4 m ρ c (Proc.devRef .tc main_v26)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 4).trans ((hH3 (V7 m ρ) c).trans ?_)
  show Cert.Layer.update (W7 m ρ c (Proc.devRef .tc main_v47)) (W7 m ρ c (Proc.devRef .tc main_v29_2)) (W7 m ρ c (Proc.devRef .tc main_arg14)) (W7 m ρ c (Proc.devRef .tc main_v48)) = _
  rw [W7_main_v47, W7_main_v29_2, W7_main_arg14, W7_main_v48, W6_main_v29_0 m ρ c hA2, W6_main_v29_1 m ρ c hB2, W6_main_v29_2 m ρ c hR2]
  rfl

end Cert.KernelIdeal.Chain

end
-- ==== Proof.KernelNet3.lean ====
/-
  Layer 3 of the idealized kernel's run, read buffer by buffer through the boundaries between its segments.

  The host operations before the layer lay two biases out as rows; the node array the layer starts from is the previous layer's result.
  The layer's first tiled region leaves the three images of the node array — each a whole-array function of the region's
  entry contents, which is what the hypotheses on the regions say —; the host operations after it are the edge step on the
  first two images and lay the third bias out as a row; the second tiled region leaves the layer's result. A buffer that a
  segment does not write is read back through it unchanged: a region leaves every buffer that is not one of its arrays
  as entered, a stretch of host operations every buffer none of them writes. So the layer's result buffer holds
  `Cert.Net.layer` of the layer's start array, the edge list and the layer's seven parameter arrays as launched.
-/
import proofs.«114584_j80015240725026_1_alg».proof.Proof.Gen.KernelIdeal.Frame
import proofs.«114584_j80015240725026_1_alg».proof.Proof.Net
import proofs.«114584_j80015240725026_1_alg».proof.Proof.KernelNet1
import Idealize.ShloMosaic.Lib.StableHlo.Run
import Idealize.ShloMosaic.Lib.Pipeline.Value

set_option maxRecDepth 16384
-- the third layer's buffers are read back through up to eleven boundaries: long, linear rewriting
set_option maxHeartbeats 4000000

noncomputable section

namespace Cert.KernelIdeal.Chain

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

-- what each of the layer's two regions leaves, as a function of the region's entry contents
variable
  (hA4 : ∀ (V : (c : Dev nD) → (b : Ref sig .tc) → Buf (Elt Ideal) ((c : Thread nD τ).loc b)) (c : Dev nD), (dat4 (F := Ideal) V c).arrAt 6 cfg4.N = Cert.Layer.affine (V c (Pipeline.arrRef spec4 0)) (V c (Pipeline.arrRef spec4 1)) (V c (Pipeline.arrRef spec4 2)))
  (hB4 : ∀ (V : (c : Dev nD) → (b : Ref sig .tc) → Buf (Elt Ideal) ((c : Thread nD τ).loc b)) (c : Dev nD), (dat4 (F := Ideal) V c).arrAt 7 cfg4.N = Cert.Layer.linear (V c (Pipeline.arrRef spec4 0)) (V c (Pipeline.arrRef spec4 3)))
  (hR4 : ∀ (V : (c : Dev nD) → (b : Ref sig .tc) → Buf (Elt Ideal) ((c : Thread nD τ).loc b)) (c : Dev nD), (dat4 (F := Ideal) V c).arrAt 8 cfg4.N = Cert.Layer.affine (V c (Pipeline.arrRef spec4 0)) (V c (Pipeline.arrRef spec4 4)) (V c (Pipeline.arrRef spec4 5)))
  (hH5 : ∀ (V : (c : Dev nD) → (b : Ref sig .tc) → Buf (Elt Ideal) ((c : Thread nD τ).loc b)) (c : Dev nD), (dat5 (F := Ideal) V c).arrAt 4 cfg5.N = Cert.Layer.update (V c (Pipeline.arrRef spec5 0)) (V c (Pipeline.arrRef spec5 1)) (V c (Pipeline.arrRef spec5 2)) (V c (Pipeline.arrRef spec5 3)))

theorem W9_main_v49 : W9 m ρ c (Proc.devRef .tc main_v49) = W8 m ρ c (Proc.devRef .tc main_v49) := by
  show StableHlo.after hostOps4 (W8 m ρ c) (Proc.devRef .tc main_v49) = _
  after_results
set_option maxHeartbeats 4000000 in
theorem W9_main_arg16 : W9 m ρ c (Proc.devRef .tc main_arg16) = (m ((c : Thread nD τ).loc main_arg16)) := by
  show StableHlo.after hostOps4 (W8 m ρ c) (Proc.devRef .tc main_arg16) = _
  after_results
  rw [W8_of_ne m ρ c main_arg16 (by decide)]
  show StableHlo.after hostOps3 (W6 m ρ c) (Proc.devRef .tc main_arg16) = _
  after_results
  rw [W6_of_ne m ρ c main_arg16 (by decide)]
  show StableHlo.after hostOps2 (W4 m ρ c) (Proc.devRef .tc main_arg16) = _
  after_results
  rw [W4_of_ne m ρ c main_arg16 (by decide)]
  show StableHlo.after hostOps1 (W2 m ρ c) (Proc.devRef .tc main_arg16) = _
  after_results
  rw [W2_of_ne m ρ c main_arg16 (by decide)]
  show StableHlo.after hostOps0 (W0 m ρ c) (Proc.devRef .tc main_arg16) = _
  after_results
set_option maxHeartbeats 4000000 in
theorem W9_main_arg18 : W9 m ρ c (Proc.devRef .tc main_arg18) = (m ((c : Thread nD τ).loc main_arg18)) := by
  show StableHlo.after hostOps4 (W8 m ρ c) (Proc.devRef .tc main_arg18) = _
  after_results
  rw [W8_of_ne m ρ c main_arg18 (by decide)]
  show StableHlo.after hostOps3 (W6 m ρ c) (Proc.devRef .tc main_arg18) = _
  after_results
  rw [W6_of_ne m ρ c main_arg18 (by decide)]
  show StableHlo.after hostOps2 (W4 m ρ c) (Proc.devRef .tc main_arg18) = _
  after_results
  rw [W4_of_ne m ρ c main_arg18 (by decide)]
  show StableHlo.after hostOps1 (W2 m ρ c) (Proc.devRef .tc main_arg18) = _
  after_results
  rw [W2_of_ne m ρ c main_arg18 (by decide)]
  show StableHlo.after hostOps0 (W0 m ρ c) (Proc.devRef .tc main_arg18) = _
  after_results
set_option maxHeartbeats 4000000 in
theorem W9_main_arg19 : W9 m ρ c (Proc.devRef .tc main_arg19) = (m ((c : Thread nD τ).loc main_arg19)) := by
  show StableHlo.after hostOps4 (W8 m ρ c) (Proc.devRef .tc main_arg19) = _
  after_results
  rw [W8_of_ne m ρ c main_arg19 (by decide)]
  show StableHlo.after hostOps3 (W6 m ρ c) (Proc.devRef .tc main_arg19) = _
  after_results
  rw [W6_of_ne m ρ c main_arg19 (by decide)]
  show StableHlo.after hostOps2 (W4 m ρ c) (Proc.devRef .tc main_arg19) = _
  after_results
  rw [W4_of_ne m ρ c main_arg19 (by decide)]
  show StableHlo.after hostOps1 (W2 m ρ c) (Proc.devRef .tc main_arg19) = _
  after_results
  rw [W2_of_ne m ρ c main_arg19 (by decide)]
  show StableHlo.after hostOps0 (W0 m ρ c) (Proc.devRef .tc main_arg19) = _
  after_results
set_option maxHeartbeats 4000000 in
theorem W8_main_arg17 : W8 m ρ c (Proc.devRef .tc main_arg17) = (m ((c : Thread nD τ).loc main_arg17)) := by
  rw [W8_of_ne m ρ c main_arg17 (by decide)]
  show StableHlo.after hostOps3 (W6 m ρ c) (Proc.devRef .tc main_arg17) = _
  after_results
  rw [W6_of_ne m ρ c main_arg17 (by decide)]
  show StableHlo.after hostOps2 (W4 m ρ c) (Proc.devRef .tc main_arg17) = _
  after_results
  rw [W4_of_ne m ρ c main_arg17 (by decide)]
  show StableHlo.after hostOps1 (W2 m ρ c) (Proc.devRef .tc main_arg17) = _
  after_results
  rw [W2_of_ne m ρ c main_arg17 (by decide)]
  show StableHlo.after hostOps0 (W0 m ρ c) (Proc.devRef .tc main_arg17) = _
  after_results
theorem W9_main_v50 : W9 m ρ c (Proc.devRef .tc main_v50) = Cert.Net.row (m ((c : Thread nD τ).loc main_arg17)) := by
  show StableHlo.after hostOps4 (W8 m ρ c) (Proc.devRef .tc main_v50) = _
  after_results
  rw [W8_main_arg17]
  exact reshape_row (m ((c : Thread nD τ).loc main_arg17)) _
set_option maxHeartbeats 4000000 in
theorem W8_main_arg20 : W8 m ρ c (Proc.devRef .tc main_arg20) = (m ((c : Thread nD τ).loc main_arg20)) := by
  rw [W8_of_ne m ρ c main_arg20 (by decide)]
  show StableHlo.after hostOps3 (W6 m ρ c) (Proc.devRef .tc main_arg20) = _
  after_results
  rw [W6_of_ne m ρ c main_arg20 (by decide)]
  show StableHlo.after hostOps2 (W4 m ρ c) (Proc.devRef .tc main_arg20) = _
  after_results
  rw [W4_of_ne m ρ c main_arg20 (by decide)]
  show StableHlo.after hostOps1 (W2 m ρ c) (Proc.devRef .tc main_arg20) = _
  after_results
  rw [W2_of_ne m ρ c main_arg20 (by decide)]
  show StableHlo.after hostOps0 (W0 m ρ c) (Proc.devRef .tc main_arg20) = _
  after_results
theorem W9_main_v51 : W9 m ρ c (Proc.devRef .tc main_v51) = Cert.Net.row (m ((c : Thread nD τ).loc main_arg20)) := by
  show StableHlo.after hostOps4 (W8 m ρ c) (Proc.devRef .tc main_v51) = _
  after_results
  rw [W8_main_arg20]
  exact reshape_row (m ((c : Thread nD τ).loc main_arg20)) _
include hA4 in
theorem W10_main_v52_0 : W10 m ρ c (Proc.devRef .tc main_v52_0) = Cert.Layer.affine (W8 m ρ c (Proc.devRef .tc main_v49)) (m ((c : Thread nD τ).loc main_arg16)) (Cert.Net.row (m ((c : Thread nD τ).loc main_arg17))) := by
  refine (W10_arr m ρ c 6).trans ((hA4 (V9 m ρ) c).trans ?_)
  show Cert.Layer.affine (W9 m ρ c (Proc.devRef .tc main_v49)) (W9 m ρ c (Proc.devRef .tc main_arg16)) (W9 m ρ c (Proc.devRef .tc main_v50)) = _
  rw [W9_main_v49, W9_main_arg16, W9_main_v50]
include hB4 in
theorem W10_main_v52_1 : W10 m ρ c (Proc.devRef .tc main_v52_1) = Cert.Layer.linear (W8 m ρ c (Proc.devRef .tc main_v49)) (m ((c : Thread nD τ).loc main_arg18)) := by
  refine (W10_arr m ρ c 7).trans ((hB4 (V9 m ρ) c).trans ?_)
  show Cert.Layer.linear (W9 m ρ c (Proc.devRef .tc main_v49)) (W9 m ρ c (Proc.devRef .tc main_arg18)) = _
  rw [W9_main_v49, W9_main_arg18]
include hR4 in
theorem W10_main_v52_2 : W10 m ρ c (Proc.devRef .tc main_v52_2) = Cert.Layer.affine (W8 m ρ c (Proc.devRef .tc main_v49)) (m ((c : Thread nD τ).loc main_arg19)) (Cert.Net.row (m ((c : Thread nD τ).loc main_arg20))) := by
  refine (W10_arr m ρ c 8).trans ((hR4 (V9 m ρ) c).trans ?_)
  show Cert.Layer.affine (W9 m ρ c (Proc.devRef .tc main_v49)) (W9 m ρ c (Proc.devRef .tc main_arg19)) (W9 m ρ c (Proc.devRef .tc main_v51)) = _
  rw [W9_main_v49, W9_main_arg19, W9_main_v51]
set_option maxHeartbeats 4000000 in
theorem W10_main_v1 : W10 m ρ c (Proc.devRef .tc main_v1) = Cert.Net.srcOf (m ((c : Thread nD τ).loc main_arg1)) := by
  rw [W10_of_ne m ρ c main_v1 (by decide)]
  show StableHlo.after hostOps4 (W8 m ρ c) (Proc.devRef .tc main_v1) = _
  after_results
  rw [W8_of_ne m ρ c main_v1 (by decide)]
  show StableHlo.after hostOps3 (W6 m ρ c) (Proc.devRef .tc main_v1) = _
  after_results
  rw [W6_of_ne m ρ c main_v1 (by decide)]
  show StableHlo.after hostOps2 (W4 m ρ c) (Proc.devRef .tc main_v1) = _
  after_results
  rw [W4_of_ne m ρ c main_v1 (by decide)]
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  all_goals rfl
set_option maxHeartbeats 4000000 in
theorem W10_main_v3 : W10 m ρ c (Proc.devRef .tc main_v3) = Cert.Net.dstOf (m ((c : Thread nD τ).loc main_arg1)) := by
  rw [W10_of_ne m ρ c main_v3 (by decide)]
  show StableHlo.after hostOps4 (W8 m ρ c) (Proc.devRef .tc main_v3) = _
  after_results
  rw [W8_of_ne m ρ c main_v3 (by decide)]
  show StableHlo.after hostOps3 (W6 m ρ c) (Proc.devRef .tc main_v3) = _
  after_results
  rw [W6_of_ne m ρ c main_v3 (by decide)]
  show StableHlo.after hostOps2 (W4 m ρ c) (Proc.devRef .tc main_v3) = _
  after_results
  rw [W4_of_ne m ρ c main_v3 (by decide)]
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  all_goals rfl
set_option maxHeartbeats 4000000 in
theorem W11_main_v70 : W11 m ρ c (Proc.devRef .tc main_v70) = Cert.Net.edge (W10 m ρ c (Proc.devRef .tc main_v52_0)) (W10 m ρ c (Proc.devRef .tc main_v52_1)) (m ((c : Thread nD τ).loc main_arg1)) := by
  show StableHlo.after hostOps5 (W10 m ρ c) (Proc.devRef .tc main_v70) = _
  after_results_simp
  rw [W10_main_v1, W10_main_v3]
  rfl
theorem W11_main_v52_2 : W11 m ρ c (Proc.devRef .tc main_v52_2) = W10 m ρ c (Proc.devRef .tc main_v52_2) := by
  show StableHlo.after hostOps5 (W10 m ρ c) (Proc.devRef .tc main_v52_2) = _
  after_results
set_option maxHeartbeats 4000000 in
theorem W11_main_arg21 : W11 m ρ c (Proc.devRef .tc main_arg21) = (m ((c : Thread nD τ).loc main_arg21)) := by
  show StableHlo.after hostOps5 (W10 m ρ c) (Proc.devRef .tc main_arg21) = _
  after_results
  rw [W10_of_ne m ρ c main_arg21 (by decide)]
  show StableHlo.after hostOps4 (W8 m ρ c) (Proc.devRef .tc main_arg21) = _
  after_results
  rw [W8_of_ne m ρ c main_arg21 (by decide)]
  show StableHlo.after hostOps3 (W6 m ρ c) (Proc.devRef .tc main_arg21) = _
  after_results
  rw [W6_of_ne m ρ c main_arg21 (by decide)]
  show StableHlo.after hostOps2 (W4 m ρ c) (Proc.devRef .tc main_arg21) = _
  after_results
  rw [W4_of_ne m ρ c main_arg21 (by decide)]
  show StableHlo.after hostOps1 (W2 m ρ c) (Proc.devRef .tc main_arg21) = _
  after_results
  rw [W2_of_ne m ρ c main_arg21 (by decide)]
  show StableHlo.after hostOps0 (W0 m ρ c) (Proc.devRef .tc main_arg21) = _
  after_results
set_option maxHeartbeats 4000000 in
theorem W10_main_arg22 : W10 m ρ c (Proc.devRef .tc main_arg22) = (m ((c : Thread nD τ).loc main_arg22)) := by
  rw [W10_of_ne m ρ c main_arg22 (by decide)]
  show StableHlo.after hostOps4 (W8 m ρ c) (Proc.devRef .tc main_arg22) = _
  after_results
  rw [W8_of_ne m ρ c main_arg22 (by decide)]
  show StableHlo.after hostOps3 (W6 m ρ c) (Proc.devRef .tc main_arg22) = _
  after_results
  rw [W6_of_ne m ρ c main_arg22 (by decide)]
  show StableHlo.after hostOps2 (W4 m ρ c) (Proc.devRef .tc main_arg22) = _
  after_results
  rw [W4_of_ne m ρ c main_arg22 (by decide)]
  show StableHlo.after hostOps1 (W2 m ρ c) (Proc.devRef .tc main_arg22) = _
  after_results
  rw [W2_of_ne m ρ c main_arg22 (by decide)]
  show StableHlo.after hostOps0 (W0 m ρ c) (Proc.devRef .tc main_arg22) = _
  after_results
theorem W11_main_v71 : W11 m ρ c (Proc.devRef .tc main_v71) = Cert.Net.row (m ((c : Thread nD τ).loc main_arg22)) := by
  show StableHlo.after hostOps5 (W10 m ρ c) (Proc.devRef .tc main_v71) = _
  after_results
  rw [W10_main_arg22]
  exact reshape_row (m ((c : Thread nD τ).loc main_arg22)) _
include hA4 hB4 hR4 hH5 in
theorem W12_main_v72 : W12 m ρ c (Proc.devRef .tc main_v72) = Cert.Net.layer (W8 m ρ c (Proc.devRef .tc main_v49)) (m ((c : Thread nD τ).loc main_arg1)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W12_arr m ρ c 4).trans ((hH5 (V11 m ρ) c).trans ?_)
  show Cert.Layer.update (W11 m ρ c (Proc.devRef .tc main_v70)) (W11 m ρ c (Proc.devRef .tc main_v52_2)) (W11 m ρ c (Proc.devRef .tc main_arg21)) (W11 m ρ c (Proc.devRef .tc main_v71)) = _
  rw [W11_main_v70, W11_main_v52_2, W11_main_arg21, W11_main_v71, W10_main_v52_0 m ρ c hA4, W10_main_v52_1 m ρ c hB4, W10_main_v52_2 m ρ c hR4]
  rfl

end Cert.KernelIdeal.Chain

end
-- ==== Proof.ProjectValue.lean ====
/-
  The three images a layer takes of the node array, as the tiled region computes them.

  The region walks the 50000 rows of the node array x in 10 tiles of 5000 rows. On each tile it
  forms x·W1 + b1, x·W2 and x·W3 + b3: a 5000×64 by 64×64 matrix product into a zero accumulator,
  and for the first and third a bias row repeated down the 5000 rows and added. The narrowing of
  the operands before the product changes no value over the extended reals. Entry (p, q) of a
  tile's product is the sum over the 64 shared features k of x (p, k) · w (k, q); row p of tile t
  is row 5000·t + p of the node array, and the ten tiles cover every row once, so each output
  array is the whole-array function of the layer's specification.
-/
import proofs.«114584_j80015240725026_1_alg».proof.Proof.Gen.KernelIdeal.Frame
import proofs.«114584_j80015240725026_1_alg».proof.Proof.Layer
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Project

open Cert.KernelIdeal Cert.KernelIdeal.Gen Idealize.ShloMosaic Idealize.ShloMosaic.ValueIdx
open Idealize.ShloMosaic.TcCoe Idealize.SL.Sem
open Idealize.ShloMosaic.Pipeline (Dat)

/-! ## A tile's matrix product, entry by entry -/

/-- The left operand's row is the output's row … -/
theorem lhs_row (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and its column the summed feature. -/
theorem lhs_col (i : S5000x64.Idx) (c : dot_S5000x64_S64x64_S5000x64_1_0_0_1_n_n.contr.Idx) : (dot_S5000x64_S64x64_S5000x64_1_0_0_1_n_n.lhsIdx i c 1).val = (c ⟨0, by decide⟩).val :=
  dot_S5000x64_S64x64_S5000x64_1_0_0_1_n_n.lhsIdx_val_of_single rfl i c
/-- The right operand's row is the summed feature … -/
theorem rhs_row (i : S5000x64.Idx) (c : dot_S5000x64_S64x64_S5000x64_1_0_0_1_n_n.contr.Idx) : (dot_S5000x64_S64x64_S5000x64_1_0_0_1_n_n.rhsIdx i c 0).val = (c ⟨0, by decide⟩).val :=
  dot_S5000x64_S64x64_S5000x64_1_0_0_1_n_n.rhsIdx_val_of_single rfl i c
/-- … and its column the output's column. -/
theorem rhs_col (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product's left operand is read at the output's row and the summed feature. -/
theorem lhs_at (p : Fin 5000) (q k : Fin 64) :
    dot_S5000x64_S64x64_S5000x64_1_0_0_1_n_n.lhsIdx (ix2 p q) ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  refine funext fun a => Fin.ext ?_
  match a with
  | ⟨0, _⟩ => exact lhs_row _ _
  | ⟨1, _⟩ => exact (lhs_col _ _).trans hk

/-- The product's right operand is read at the summed feature and the output's column. -/
theorem rhs_at (p : Fin 5000) (q k : Fin 64) :
    dot_S5000x64_S64x64_S5000x64_1_0_0_1_n_n.rhsIdx (ix2 p q) ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  refine funext fun a => Fin.ext ?_
  match a with
  | ⟨0, _⟩ => exact (rhs_row _ _).trans hk
  | ⟨1, _⟩ => exact rhs_col _ _

/-- A tile's product into a zero accumulator: entry (p, q) is the sum over the 64 shared features. -/
theorem tile_product {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant S5000x64 .f32 0x00000000#32) (ix2 p q)
      = ∑ k : Fin 64, x (ix2 p k) * w (ix2 k q) := by
  rw [Ideal.matmul_constant_zero_apply,
    ← Equiv.sum_comp (contrEquiv1 dot_S5000x64_S64x64_S5000x64_1_0_0_1_n_n 64 rfl rfl).symm]
  refine Finset.sum_congr rfl fun k _ => ?_
  rw [lhs_at, rhs_at]

/-- The bias row repeated down a tile: entry (p, q) is the row's entry q. -/
theorem bias_tile (r : Vec Ideal S1x64 .f32) (p : Fin 5000) (q : Fin 64) :
    broadcastTo S5000x64 (shapeCast S1x64 r shapeCasts_S1x64_S1x64) broadcasts_S1x64_S5000x64 (ix2 p q)
      = r (ix2 (0 : Fin 1) q) := by
  rw [shapeCast_self]
  refine broadcastTo_apply r broadcasts_S1x64_S5000x64 (ix2 p q) (ix2 (0 : Fin 1) q) fun a => ?_
  match a with
  | ⟨0, _⟩ => rfl
  | ⟨1, _⟩ => rfl

/-! ## Region 0: the body's three results on a tile -/

/-- The first image on a tile: the product with the first matrix plus the first bias row. -/
theorem pay0_a (x0 : Vec Ideal S5000x64 .f32) (w : Vec Ideal S64x64 .f32) (r : Vec Ideal S1x64 .f32)
    (p : Fin 5000) (q : Fin 64) :
    k0_pay2 x0 w r (ix2 p q) = (∑ k : Fin 64, x0 (ix2 p k) * w (ix2 k q)) + r (ix2 (0 : Fin 1) q) := by
  unfold k0_pay2 k0_pay1
  rw [addf_apply, bias_tile]
  exact congrArg (· + r (ix2 (0 : Fin 1) q)) (tile_product _ _ p q)

/-- The second image on a tile: the product with the second matrix. -/
theorem pay0_b (x0 : Vec Ideal S5000x64 .f32) (w : Vec Ideal S64x64 .f32) (p : Fin 5000) (q : Fin 64) :
    k0_pay3 x0 w (ix2 p q) = ∑ k : Fin 64, x0 (ix2 p k) * w (ix2 k q) := by
  unfold k0_pay3 k0_pay1
  exact tile_product _ _ p q

/-- The third image on a tile: the product with the third matrix plus the third bias row. -/
theorem pay0_root (x0 : Vec Ideal S5000x64 .f32) (w : Vec Ideal S64x64 .f32) (r : Vec Ideal S1x64 .f32)
    (p : Fin 5000) (q : Fin 64) :
    k0_pay4 x0 w r (ix2 p q) = (∑ k : Fin 64, x0 (ix2 p k) * w (ix2 k q)) + r (ix2 (0 : Fin 1) q) := by
  unfold k0_pay4 k0_pay1
  rw [addf_apply, bias_tile]
  exact congrArg (· + r (ix2 (0 : Fin 1) q)) (tile_product _ _ p q)

/-- The body's loads and stores start at the tile's corner. -/
theorem origin : (![0, 0] : Fin 2 → Nat) = fun _ => 0 := funext fun a => by fin_cases a <;> rfl

/-- A tile's first image is the whole array's at the tile's rows, once the tile's rows are the array's. -/
theorem tile_a0 (X : FVec Ideal Cert.Layer.Nodes .f32) (W : FVec Ideal Cert.Layer.Square .f32) (B : FVec Ideal Cert.Layer.Row .f32)
    (x0 : Vec Ideal S5000x64 .f32) (p : Fin 5000) (q : Fin 64) (i : S50000x64.Idx)
    (hx : ∀ k : Fin 64, x0 (ix2 p k) = X (ix2 (i 0) k)) (hq : i 1 = q) :
    k0_pay2 x0 W B (ix2 p q) = Cert.Layer.affine X W B i := by
  rw [pay0_a]
  subst hq
  show _ = (∑ k : Fin 64, X (ix2 (i 0) k) * W (ix2 k (i 1))) + B (ix2 (0 : Fin 1) (i 1))
  exact congrArg (· + B (ix2 (0 : Fin 1) (i 1))) (Finset.sum_congr rfl fun k _ => by rw [hx k])

/-- A tile's second image is the whole array's at the tile's rows. -/
theorem tile_b0 (X : FVec Ideal Cert.Layer.Nodes .f32) (W : FVec Ideal Cert.Layer.Square .f32)
    (x0 : Vec Ideal S5000x64 .f32) (p : Fin 5000) (q : Fin 64) (i : S50000x64.Idx)
    (hx : ∀ k : Fin 64, x0 (ix2 p k) = X (ix2 (i 0) k)) (hq : i 1 = q) :
    k0_pay3 x0 W (ix2 p q) = Cert.Layer.linear X W i := by
  rw [pay0_b]
  subst hq
  show _ = ∑ k : Fin 64, X (ix2 (i 0) k) * W (ix2 k (i 1))
  exact Finset.sum_congr rfl fun k _ => by rw [hx k]

/-- A tile's third image is the whole array's at the tile's rows. -/
theorem tile_root0 (X : FVec Ideal Cert.Layer.Nodes .f32) (W : FVec Ideal Cert.Layer.Square .f32) (B : FVec Ideal Cert.Layer.Row .f32)
    (x0 : Vec Ideal S5000x64 .f32) (p : Fin 5000) (q : Fin 64) (i : S50000x64.Idx)
    (hx : ∀ k : Fin 64, x0 (ix2 p k) = X (ix2 (i 0) k)) (hq : i 1 = q) :
    k0_pay4 x0 W B (ix2 p q) = Cert.Layer.affine X W B i := by
  rw [pay0_root]
  subst hq
  show _ = (∑ k : Fin 64, X (ix2 (i 0) k) * W (ix2 k (i 1))) + B (ix2 (0 : Fin 1) (i 1))
  exact congrArg (· + B (ix2 (0 : Fin 1) (i 1))) (Finset.sum_congr rfl fun k _ => by rw [hx k])

/-! ## Region 0: from tiles to the arrays -/

section Region0

variable (V : (c : Dev nD) → (b : Ref sig .tc) → Buf (Elt Ideal) ((c : Thread nD τ).loc b)) (c : Dev nD)

/-- The printed block indices over the ten grid points: the node array and the three outputs are at
    tile t, column block 0; the matrices and bias rows are whole, at block (0, 0). -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row p of tile t of the node array is row 5000·t + p of the array. -/
theorem x_tile0 (t : Fin cfg0.N) (p : Fin 5000) (k : Fin 64) (r : Fin 50000) (hr : r.val = 5000 * t.val + p.val) :
    (iblk0 V c 0 t : Vec Ideal S5000x64 .f32) (ix2 p k)
      = (V c (Pipeline.arrRef spec0 0) : S50000x64.Idx → EReal) (ix2 r k) := by
  obtain ⟨e0, e1, -⟩ := tile_index0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Window 1's block is its whole array at every point. -/
theorem whole0_1 (t : Fin cfg0.N) :
    (iblk0 V c 1 t : Vec Ideal S64x64 .f32) = (V c (Pipeline.arrRef spec0 1) : S64x64.Idx → EReal) := by
  have e := tile_index0 t
  have e0 : win0_1.index t (0 : Fin 2) = 0 := e.2.2.1
  have e1 : win0_1.index t (1 : Fin 2) = 0 := e.2.2.2.1
  funext y
  unfold iblk0
  rw [View.read_apply]
  show V c main_arg2 _ = V c main_arg2 y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- Window 2's block is its whole array at every point. -/
theorem whole0_2 (t : Fin cfg0.N) :
    (iblk0 V c 2 t : Vec Ideal S1x64 .f32) = (V c (Pipeline.arrRef spec0 2) : S1x64.Idx → EReal) := by
  have e := tile_index0 t
  have e0 : win0_2.index t (0 : Fin 2) = 0 := e.2.2.2.2.1
  have e1 : win0_2.index t (1 : Fin 2) = 0 := e.2.2.2.2.2.1
  funext y
  unfold iblk0
  rw [View.read_apply]
  show V c main_v4 _ = V c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- Window 3's block is its whole array at every point. -/
theorem whole0_3 (t : Fin cfg0.N) :
    (iblk0 V c 3 t : Vec Ideal S64x64 .f32) = (V c (Pipeline.arrRef spec0 3) : S64x64.Idx → EReal) := by
  have e := tile_index0 t
  have e0 : win0_3.index t (0 : Fin 2) = 0 := e.2.2.2.2.2.2.1
  have e1 : win0_3.index t (1 : Fin 2) = 0 := e.2.2.2.2.2.2.2.1
  funext y
  unfold iblk0
  rw [View.read_apply]
  show V c main_arg4 _ = V c main_arg4 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4's block is its whole array at every point. -/
theorem whole0_4 (t : Fin cfg0.N) :
    (iblk0 V c 4 t : Vec Ideal S64x64 .f32) = (V c (Pipeline.arrRef spec0 4) : S64x64.Idx → EReal) := by
  have e := tile_index0 t
  have e0 : win0_4.index t (0 : Fin 2) = 0 := e.2.2.2.2.2.2.2.2.1
  have e1 : win0_4.index t (1 : Fin 2) = 0 := e.2.2.2.2.2.2.2.2.2.1
  funext y
  unfold iblk0
  rw [View.read_apply]
  show V c main_arg5 _ = V c main_arg5 y
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Window 5's block is its whole array at every point. -/
theorem whole0_5 (t : Fin cfg0.N) :
    (iblk0 V c 5 t : Vec Ideal S1x64 .f32) = (V c (Pipeline.arrRef spec0 5) : S1x64.Idx → EReal) := by
  have e := tile_index0 t
  have e0 : win0_5.index t (0 : Fin 2) = 0 := e.2.2.2.2.2.2.2.2.2.2.1
  have e1 : win0_5.index t (1 : Fin 2) = 0 := e.2.2.2.2.2.2.2.2.2.2.2.1
  funext y
  unfold iblk0
  rw [View.read_apply]
  show V c main_v5 _ = V c main_v5 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- What point t writes back to the array of the a image is tile t of the specification's function. -/
theorem flushed_a0 (t : Fin cfg0.N) :
    (dat0 (F := Ideal) V c).flushed 6 t = ((cfg0.win 6).blk t).view.read (Elt Ideal) (Cert.Layer.affine (V c (Pipeline.arrRef spec0 0)) (V c (Pipeline.arrRef spec0 1)) (V c (Pipeline.arrRef spec0 2))) := by
  have e := tile_index0 t
  have e0 : win0_6.index t (0 : Fin 2) = t.val := e.2.2.2.2.2.2.2.2.2.2.2.2.1
  have e1 : win0_6.index t (1 : Fin 2) = 0 := e.2.2.2.2.2.2.2.2.2.2.2.2.2.1
  show (cfg0.win 6).cut (grid0.coords t) ((dat0 V c).after 6 t) = _
  rw [after0_6]
  unfold out0_6
  rw [View.canon_unit_zero origin]
  simp only [View.ld_unit_zero (S := S5000x64) origin, View.ld_unit_zero (S := S64x64) origin, View.ld_unit_zero (S := S1x64) origin]
  funext j
  show k0_pay2 (iblk0 V c 0 t) (iblk0 V c 1 t) (iblk0 V c 2 t) j = (Cert.Layer.affine (V c (Pipeline.arrRef spec0 0)) (V c (Pipeline.arrRef spec0 1)) (V c (Pipeline.arrRef spec0 2))) (((cfg0.win 6).blk t).view.emb j)
  rw [whole0_1 V c t, whole0_2 V c t]
  refine (congrArg _ (eq_ix2 (j : S5000x64.Idx))).trans (tile_a0 _ _ _ _ (j 0) (j 1) _ (fun k => x_tile0 V c t (j 0) k _ ?_) ?_)
  · show win0_6.index t (0 : Fin 2) * 5000 + 1 * (j 0).val = 5000 * t.val + (j 0).val
    rw [e0]; omega
  · apply Fin.ext
    show win0_6.index t (1 : Fin 2) * 64 + 1 * (j 1).val = (j 1).val
    rw [e1]; omega

/-- A row and column are in point t's tile of the a image iff the row is among the tile's 5000 and the column among the 64. -/
theorem mem_tile_a0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v6_0).slice (win0_6.rect t)).set ↔ _
  rw [View.set_slice_whole, Rect.mem_set_unit]
  exact Iff.rfl

/-- Every row is in the tile of the point numbered by the row divided by 5000. -/
theorem cover_a0 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  have e := tile_index0 ⟨(i 0).val / 5000, ht⟩
  have e0 : win0_6.index ⟨(i 0).val / 5000, ht⟩ (0 : Fin 2) = (i 0).val / 5000 := e.2.2.2.2.2.2.2.2.2.2.2.2.1
  have e1 : win0_6.index ⟨(i 0).val / 5000, ht⟩ (1 : Fin 2) = 0 := e.2.2.2.2.2.2.2.2.2.2.2.2.2.1
  refine ⟨⟨(i 0).val / 5000, ht⟩, flush0_6 _, ?_⟩
  rw [mem_tile_a0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [e1]; omega

/-- The array of the a image after the region is the specification's function of the arrays the region found. -/
theorem a0 : (dat0 (F := Ideal) V c).arrAt 6 cfg0.N = Cert.Layer.affine (V c (Pipeline.arrRef spec0 0)) (V c (Pipeline.arrRef spec0 1)) (V c (Pipeline.arrRef spec0 2)) :=
  (dat0 (F := Ideal) V c).arrAt_eq_of_cover 6 (Cert.Layer.affine (V c (Pipeline.arrRef spec0 0)) (V c (Pipeline.arrRef spec0 1)) (V c (Pipeline.arrRef spec0 2))) (fun t _ => flushed_a0 V c t) (cover_a0)

/-- What point t writes back to the array of the b image is tile t of the specification's function. -/
theorem flushed_b0 (t : Fin cfg0.N) :
    (dat0 (F := Ideal) V c).flushed 7 t = ((cfg0.win 7).blk t).view.read (Elt Ideal) (Cert.Layer.linear (V c (Pipeline.arrRef spec0 0)) (V c (Pipeline.arrRef spec0 3))) := by
  have e := tile_index0 t
  have e0 : win0_7.index t (0 : Fin 2) = t.val := e.2.2.2.2.2.2.2.2.2.2.2.2.2.2.1
  have e1 : win0_7.index t (1 : Fin 2) = 0 := e.2.2.2.2.2.2.2.2.2.2.2.2.2.2.2.1
  show (cfg0.win 7).cut (grid0.coords t) ((dat0 V c).after 7 t) = _
  rw [after0_7]
  unfold out0_7
  rw [View.canon_unit_zero origin]
  simp only [View.ld_unit_zero (S := S5000x64) origin, View.ld_unit_zero (S := S64x64) origin, View.ld_unit_zero (S := S1x64) origin]
  funext j
  show k0_pay3 (iblk0 V c 0 t) (iblk0 V c 3 t) j = (Cert.Layer.linear (V c (Pipeline.arrRef spec0 0)) (V c (Pipeline.arrRef spec0 3))) (((cfg0.win 7).blk t).view.emb j)
  rw [whole0_3 V c t]
  refine (congrArg _ (eq_ix2 (j : S5000x64.Idx))).trans (tile_b0 _ _ _ (j 0) (j 1) _ (fun k => x_tile0 V c t (j 0) k _ ?_) ?_)
  · show win0_7.index t (0 : Fin 2) * 5000 + 1 * (j 0).val = 5000 * t.val + (j 0).val
    rw [e0]; omega
  · apply Fin.ext
    show win0_7.index t (1 : Fin 2) * 64 + 1 * (j 1).val = (j 1).val
    rw [e1]; omega

/-- A row and column are in point t's tile of the b image iff the row is among the tile's 5000 and the column among the 64. -/
theorem mem_tile_b0 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v6_1).slice (win0_7.rect t)).set ↔ _
  rw [View.set_slice_whole, Rect.mem_set_unit]
  exact Iff.rfl

/-- Every row is in the tile of the point numbered by the row divided by 5000. -/
theorem cover_b0 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  have e := tile_index0 ⟨(i 0).val / 5000, ht⟩
  have e0 : win0_7.index ⟨(i 0).val / 5000, ht⟩ (0 : Fin 2) = (i 0).val / 5000 := e.2.2.2.2.2.2.2.2.2.2.2.2.2.2.1
  have e1 : win0_7.index ⟨(i 0).val / 5000, ht⟩ (1 : Fin 2) = 0 := e.2.2.2.2.2.2.2.2.2.2.2.2.2.2.2.1
  refine ⟨⟨(i 0).val / 5000, ht⟩, flush0_7 _, ?_⟩
  rw [mem_tile_b0]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    rw [e1]; omega

/-- The array of the b image after the region is the specification's function of the arrays the region found. -/
theorem b0 : (dat0 (F := Ideal) V c).arrAt 7 cfg0.N = Cert.Layer.linear (V c (Pipeline.arrRef spec0 0)) (V c (Pipeline.arrRef spec0 3)) :=
  (dat0 (F := Ideal) V c).arrAt_eq_of_cover 7 (Cert.Layer.linear (V c (Pipeline.arrRef spec0 0)) (V c (Pipeline.arrRef spec0 3))) (fun t _ => flushed_b0 V c t) (cover_b0)

/-- What point t writes back to the array of the root image is tile t of the specification's function. -/
theorem flushed_root0 (t : Fin cfg0.N) :
    (dat0 (F := Ideal) V c).flushed 8 t = ((cfg0.win 8).blk t).view.read (Elt Ideal) (Cert.Layer.affine (V c (Pipeline.arrRef spec0 0)) (V c (Pipeline.arrRef spec0 4)) (V c (Pipeline.arrRef spec0 5))) := by
  have e := tile_index0 t
  have e0 : win0_8.index t (0 : Fin 2) = t.val := e.2.2.2.2.2.2.2.2.2.2.2.2.2.2.2.2.1
  have e1 : win0_8.index t (1 : Fin 2) = 0 := e.2.2.2.2.2.2.2.2.2.2.2.2.2.2.2.2.2
  show (cfg0.win 8).cut (grid0.coords t) ((dat0 V c).after 8 t) = _
  rw [after0_8]
  unfold out0_8
  rw [View.canon_unit_zero origin]
  simp only [View.ld_unit_zero (S := S5000x64) origin, View.ld_unit_zero (S := S64x64) origin, View.ld_unit_zero (S := S1x64) origin]
  funext j
  show k0_pay4 (iblk0 V c 0 t) (iblk0 V c 4 t) (iblk0 V c 5 t) j = (Cert.Layer.affine (V c (Pipeline.arrRef spec0 0)) (V c (Pipeline.arrRef spec0 4)) (V c (Pipeline.arrRef spec0 5))) (((cfg0.win 8).blk t).view.emb j)
  rw [whole0_4 V c t, whole0_5 V c t]
  refine (congrArg _ (eq_ix2 (j : S5000x64.Idx))).trans (tile_root0 _ _ _ _ (j 0) (j 1) _ (fun k => x_tile0 V c t (j 0) k _ ?_) ?_)
  · show win0_8.index t (0 : Fin 2) * 5000 + 1 * (j 0).val = 5000 * t.val + (j 0).val
    rw [e0]; omega
  · apply Fin.ext
    show win0_8.index t (1 : Fin 2) * 64 + 1 * (j 1).val = (j 1).val
    rw [e1]; omega

/-- A row and column are in point t's tile of the root image iff the row is among the tile's 5000 and the column among the 64. -/
theorem mem_tile_root0 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v6_2).slice (win0_8.rect t)).set ↔ _
  rw [View.set_slice_whole, Rect.mem_set_unit]
  exact Iff.rfl

/-- Every row is in the tile of the point numbered by the row divided by 5000. -/
theorem cover_root0 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  have e := tile_index0 ⟨(i 0).val / 5000, ht⟩
  have e0 : win0_8.index ⟨(i 0).val / 5000, ht⟩ (0 : Fin 2) = (i 0).val / 5000 := e.2.2.2.2.2.2.2.2.2.2.2.2.2.2.2.2.1
  have e1 : win0_8.index ⟨(i 0).val / 5000, ht⟩ (1 : Fin 2) = 0 := e.2.2.2.2.2.2.2.2.2.2.2.2.2.2.2.2.2
  refine ⟨⟨(i 0).val / 5000, ht⟩, flush0_8 _, ?_⟩
  rw [mem_tile_root0]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e0]; omega
  | ⟨1, _⟩ =>
    show win0_8.index ⟨(i 0).val / 5000, ht⟩ (1 : Fin 2) * 64 ≤ (i 1).val ∧ (i 1).val < win0_8.index ⟨(i 0).val / 5000, ht⟩ (1 : Fin 2) * 64 + 64
    rw [e1]; omega

/-- The array of the root image after the region is the specification's function of the arrays the region found. -/
theorem root0 : (dat0 (F := Ideal) V c).arrAt 8 cfg0.N = Cert.Layer.affine (V c (Pipeline.arrRef spec0 0)) (V c (Pipeline.arrRef spec0 4)) (V c (Pipeline.arrRef spec0 5)) :=
  (dat0 (F := Ideal) V c).arrAt_eq_of_cover 8 (Cert.Layer.affine (V c (Pipeline.arrRef spec0 0)) (V c (Pipeline.arrRef spec0 4)) (V c (Pipeline.arrRef spec0 5))) (fun t _ => flushed_root0 V c t) (cover_root0)

end Region0

/-! ## Region 2: the body's three results on a tile

  As in region 0, except that the loaded tile is first recast to its own shape, which changes nothing. -/

/-- The first image on a tile: the product with the first matrix plus the first bias row. -/
theorem pay2_a (x0 : Vec Ideal S5000x64 .f32) (w : Vec Ideal S64x64 .f32) (r : Vec Ideal S1x64 .f32)
    (p : Fin 5000) (q : Fin 64) :
    k2_pay2 x0 w r (ix2 p q) = (∑ k : Fin 64, x0 (ix2 p k) * w (ix2 k q)) + r (ix2 (0 : Fin 1) q) := by
  unfold k2_pay2 k2_pay1
  rw [addf_apply, bias_tile, shapeCast_self]
  exact congrArg (· + r (ix2 (0 : Fin 1) q)) (tile_product _ _ p q)

/-- The second image on a tile: the product with the second matrix. -/
theorem pay2_b (x0 : Vec Ideal S5000x64 .f32) (w : Vec Ideal S64x64 .f32) (p : Fin 5000) (q : Fin 64) :
    k2_pay3 x0 w (ix2 p q) = ∑ k : Fin 64, x0 (ix2 p k) * w (ix2 k q) := by
  unfold k2_pay3 k2_pay1
  rw [shapeCast_self]
  exact tile_product _ _ p q

/-- The third image on a tile: the product with the third matrix plus the third bias row. -/
theorem pay2_root (x0 : Vec Ideal S5000x64 .f32) (w : Vec Ideal S64x64 .f32) (r : Vec Ideal S1x64 .f32)
    (p : Fin 5000) (q : Fin 64) :
    k2_pay4 x0 w r (ix2 p q) = (∑ k : Fin 64, x0 (ix2 p k) * w (ix2 k q)) + r (ix2 (0 : Fin 1) q) := by
  unfold k2_pay4 k2_pay1
  rw [addf_apply, bias_tile, shapeCast_self]
  exact congrArg (· + r (ix2 (0 : Fin 1) q)) (tile_product _ _ p q)

/-- A tile's first image is the whole array's at the tile's rows, once the tile's rows are the array's. -/
theorem tile_a2 (X : FVec Ideal Cert.Layer.Nodes .f32) (W : FVec Ideal Cert.Layer.Square .f32) (B : FVec Ideal Cert.Layer.Row .f32)
    (x0 : Vec Ideal S5000x64 .f32) (p : Fin 5000) (q : Fin 64) (i : S50000x64.Idx)
    (hx : ∀ k : Fin 64, x0 (ix2 p k) = X (ix2 (i 0) k)) (hq : i 1 = q) :
    k2_pay2 x0 W B (ix2 p q) = Cert.Layer.affine X W B i := by
  rw [pay2_a]
  subst hq
  show _ = (∑ k : Fin 64, X (ix2 (i 0) k) * W (ix2 k (i 1))) + B (ix2 (0 : Fin 1) (i 1))
  exact congrArg (· + B (ix2 (0 : Fin 1) (i 1))) (Finset.sum_congr rfl fun k _ => by rw [hx k])

/-- A tile's second image is the whole array's at the tile's rows. -/
theorem tile_b2 (X : FVec Ideal Cert.Layer.Nodes .f32) (W : FVec Ideal Cert.Layer.Square .f32)
    (x0 : Vec Ideal S5000x64 .f32) (p : Fin 5000) (q : Fin 64) (i : S50000x64.Idx)
    (hx : ∀ k : Fin 64, x0 (ix2 p k) = X (ix2 (i 0) k)) (hq : i 1 = q) :
    k2_pay3 x0 W (ix2 p q) = Cert.Layer.linear X W i := by
  rw [pay2_b]
  subst hq
  show _ = ∑ k : Fin 64, X (ix2 (i 0) k) * W (ix2 k (i 1))
  exact Finset.sum_congr rfl fun k _ => by rw [hx k]

/-- A tile's third image is the whole array's at the tile's rows. -/
theorem tile_root2 (X : FVec Ideal Cert.Layer.Nodes .f32) (W : FVec Ideal Cert.Layer.Square .f32) (B : FVec Ideal Cert.Layer.Row .f32)
    (x0 : Vec Ideal S5000x64 .f32) (p : Fin 5000) (q : Fin 64) (i : S50000x64.Idx)
    (hx : ∀ k : Fin 64, x0 (ix2 p k) = X (ix2 (i 0) k)) (hq : i 1 = q) :
    k2_pay4 x0 W B (ix2 p q) = Cert.Layer.affine X W B i := by
  rw [pay2_root]
  subst hq
  show _ = (∑ k : Fin 64, X (ix2 (i 0) k) * W (ix2 k (i 1))) + B (ix2 (0 : Fin 1) (i 1))
  exact congrArg (· + B (ix2 (0 : Fin 1) (i 1))) (Finset.sum_congr rfl fun k _ => by rw [hx k])

/-! ## Region 2: from tiles to the arrays -/

section Region2

variable (V : (c : Dev nD) → (b : Ref sig .tc) → Buf (Elt Ideal) ((c : Thread nD τ).loc b)) (c : Dev nD)

/-- The printed block indices over the ten grid points: the node array and the three outputs are at
    tile t, column block 0; the matrices and bias rows are whole, at block (0, 0). -/
theorem tile_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- Row p of tile t of the node array is row 5000·t + p of the array. -/
theorem x_tile2 (t : Fin cfg2.N) (p : Fin 5000) (k : Fin 64) (r : Fin 50000) (hr : r.val = 5000 * t.val + p.val) :
    (iblk2 V c 0 t : Vec Ideal S5000x64 .f32) (ix2 p k)
      = (V c (Pipeline.arrRef spec2 0) : S50000x64.Idx → EReal) (ix2 r k) := by
  obtain ⟨e0, e1, -⟩ := tile_index2 t
  unfold iblk2
  rw [View.read_apply]
  show V c main_v26 _ = V c main_v26 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Window 1's block is its whole array at every point. -/
theorem whole2_1 (t : Fin cfg2.N) :
    (iblk2 V c 1 t : Vec Ideal S64x64 .f32) = (V c (Pipeline.arrRef spec2 1) : S64x64.Idx → EReal) := by
  have e := tile_index2 t
  have e0 : win2_1.index t (0 : Fin 2) = 0 := e.2.2.1
  have e1 : win2_1.index t (1 : Fin 2) = 0 := e.2.2.2.1
  funext y
  unfold iblk2
  rw [View.read_apply]
  show V c main_arg9 _ = V c main_arg9 y
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- Window 2's block is its whole array at every point. -/
theorem whole2_2 (t : Fin cfg2.N) :
    (iblk2 V c 2 t : Vec Ideal S1x64 .f32) = (V c (Pipeline.arrRef spec2 2) : S1x64.Idx → EReal) := by
  have e := tile_index2 t
  have e0 : win2_2.index t (0 : Fin 2) = 0 := e.2.2.2.2.1
  have e1 : win2_2.index t (1 : Fin 2) = 0 := e.2.2.2.2.2.1
  funext y
  unfold iblk2
  rw [View.read_apply]
  show V c main_v27 _ = V c main_v27 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- Window 3's block is its whole array at every point. -/
theorem whole2_3 (t : Fin cfg2.N) :
    (iblk2 V c 3 t : Vec Ideal S64x64 .f32) = (V c (Pipeline.arrRef spec2 3) : S64x64.Idx → EReal) := by
  have e := tile_index2 t
  have e0 : win2_3.index t (0 : Fin 2) = 0 := e.2.2.2.2.2.2.1
  have e1 : win2_3.index t (1 : Fin 2) = 0 := e.2.2.2.2.2.2.2.1
  funext y
  unfold iblk2
  rw [View.read_apply]
  show V c main_arg11 _ = V c main_arg11 y
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block is its whole array at every point. -/
theorem whole2_4 (t : Fin cfg2.N) :
    (iblk2 V c 4 t : Vec Ideal S64x64 .f32) = (V c (Pipeline.arrRef spec2 4) : S64x64.Idx → EReal) := by
  have e := tile_index2 t
  have e0 : win2_4.index t (0 : Fin 2) = 0 := e.2.2.2.2.2.2.2.2.1
  have e1 : win2_4.index t (1 : Fin 2) = 0 := e.2.2.2.2.2.2.2.2.2.1
  funext y
  unfold iblk2
  rw [View.read_apply]
  show V c main_arg12 _ = V c main_arg12 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- Window 5's block is its whole array at every point. -/
theorem whole2_5 (t : Fin cfg2.N) :
    (iblk2 V c 5 t : Vec Ideal S1x64 .f32) = (V c (Pipeline.arrRef spec2 5) : S1x64.Idx → EReal) := by
  have e := tile_index2 t
  have e0 : win2_5.index t (0 : Fin 2) = 0 := e.2.2.2.2.2.2.2.2.2.2.1
  have e1 : win2_5.index t (1 : Fin 2) = 0 := e.2.2.2.2.2.2.2.2.2.2.2.1
  funext y
  unfold iblk2
  rw [View.read_apply]
  show V c main_v28 _ = V c main_v28 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- What point t writes back to the array of the a image is tile t of the specification's function. -/
theorem flushed_a2 (t : Fin cfg2.N) :
    (dat2 (F := Ideal) V c).flushed 6 t = ((cfg2.win 6).blk t).view.read (Elt Ideal) (Cert.Layer.affine (V c (Pipeline.arrRef spec2 0)) (V c (Pipeline.arrRef spec2 1)) (V c (Pipeline.arrRef spec2 2))) := by
  have e := tile_index2 t
  have e0 : win2_6.index t (0 : Fin 2) = t.val := e.2.2.2.2.2.2.2.2.2.2.2.2.1
  have e1 : win2_6.index t (1 : Fin 2) = 0 := e.2.2.2.2.2.2.2.2.2.2.2.2.2.1
  show (cfg2.win 6).cut (grid2.coords t) ((dat2 V c).after 6 t) = _
  rw [after2_6]
  unfold out2_6
  rw [View.canon_unit_zero origin]
  simp only [View.ld_unit_zero (S := S5000x64) origin, View.ld_unit_zero (S := S64x64) origin, View.ld_unit_zero (S := S1x64) origin]
  funext j
  show k2_pay2 (iblk2 V c 0 t) (iblk2 V c 1 t) (iblk2 V c 2 t) j = (Cert.Layer.affine (V c (Pipeline.arrRef spec2 0)) (V c (Pipeline.arrRef spec2 1)) (V c (Pipeline.arrRef spec2 2))) (((cfg2.win 6).blk t).view.emb j)
  rw [whole2_1 V c t, whole2_2 V c t]
  refine (congrArg _ (eq_ix2 (j : S5000x64.Idx))).trans (tile_a2 _ _ _ _ (j 0) (j 1) _ (fun k => x_tile2 V c t (j 0) k _ ?_) ?_)
  · show win2_6.index t (0 : Fin 2) * 5000 + 1 * (j 0).val = 5000 * t.val + (j 0).val
    rw [e0]; omega
  · apply Fin.ext
    show win2_6.index t (1 : Fin 2) * 64 + 1 * (j 1).val = (j 1).val
    rw [e1]; omega

/-- A row and column are in point t's tile of the a image iff the row is among the tile's 5000 and the column among the 64. -/
theorem mem_tile_a2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v29_0).slice (win2_6.rect t)).set ↔ _
  rw [View.set_slice_whole, Rect.mem_set_unit]
  exact Iff.rfl

/-- Every row is in the tile of the point numbered by the row divided by 5000. -/
theorem cover_a2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  have e := tile_index2 ⟨(i 0).val / 5000, ht⟩
  have e0 : win2_6.index ⟨(i 0).val / 5000, ht⟩ (0 : Fin 2) = (i 0).val / 5000 := e.2.2.2.2.2.2.2.2.2.2.2.2.1
  have e1 : win2_6.index ⟨(i 0).val / 5000, ht⟩ (1 : Fin 2) = 0 := e.2.2.2.2.2.2.2.2.2.2.2.2.2.1
  refine ⟨⟨(i 0).val / 5000, ht⟩, flush2_6 _, ?_⟩
  rw [mem_tile_a2]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; omega
  | ⟨1, _⟩ =>
    show win2_6.index ⟨(i 0).val / 5000, ht⟩ (1 : Fin 2) * 64 ≤ (i 1).val ∧ (i 1).val < win2_6.index ⟨(i 0).val / 5000, ht⟩ (1 : Fin 2) * 64 + 64
    rw [e1]; omega

/-- The array of the a image after the region is the specification's function of the arrays the region found. -/
theorem a2 : (dat2 (F := Ideal) V c).arrAt 6 cfg2.N = Cert.Layer.affine (V c (Pipeline.arrRef spec2 0)) (V c (Pipeline.arrRef spec2 1)) (V c (Pipeline.arrRef spec2 2)) :=
  (dat2 (F := Ideal) V c).arrAt_eq_of_cover 6 (Cert.Layer.affine (V c (Pipeline.arrRef spec2 0)) (V c (Pipeline.arrRef spec2 1)) (V c (Pipeline.arrRef spec2 2))) (fun t _ => flushed_a2 V c t) (cover_a2)

/-- What point t writes back to the array of the b image is tile t of the specification's function. -/
theorem flushed_b2 (t : Fin cfg2.N) :
    (dat2 (F := Ideal) V c).flushed 7 t = ((cfg2.win 7).blk t).view.read (Elt Ideal) (Cert.Layer.linear (V c (Pipeline.arrRef spec2 0)) (V c (Pipeline.arrRef spec2 3))) := by
  have e := tile_index2 t
  have e0 : win2_7.index t (0 : Fin 2) = t.val := e.2.2.2.2.2.2.2.2.2.2.2.2.2.2.1
  have e1 : win2_7.index t (1 : Fin 2) = 0 := e.2.2.2.2.2.2.2.2.2.2.2.2.2.2.2.1
  show (cfg2.win 7).cut (grid2.coords t) ((dat2 V c).after 7 t) = _
  rw [after2_7]
  unfold out2_7
  rw [View.canon_unit_zero origin]
  simp only [View.ld_unit_zero (S := S5000x64) origin, View.ld_unit_zero (S := S64x64) origin, View.ld_unit_zero (S := S1x64) origin]
  funext j
  show k2_pay3 (iblk2 V c 0 t) (iblk2 V c 3 t) j = (Cert.Layer.linear (V c (Pipeline.arrRef spec2 0)) (V c (Pipeline.arrRef spec2 3))) (((cfg2.win 7).blk t).view.emb j)
  rw [whole2_3 V c t]
  refine (congrArg _ (eq_ix2 (j : S5000x64.Idx))).trans (tile_b2 _ _ _ (j 0) (j 1) _ (fun k => x_tile2 V c t (j 0) k _ ?_) ?_)
  · show win2_7.index t (0 : Fin 2) * 5000 + 1 * (j 0).val = 5000 * t.val + (j 0).val
    rw [e0]; omega
  · apply Fin.ext
    show win2_7.index t (1 : Fin 2) * 64 + 1 * (j 1).val = (j 1).val
    rw [e1]; omega

/-- A row and column are in point t's tile of the b image iff the row is among the tile's 5000 and the column among the 64. -/
theorem mem_tile_b2 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v29_1).slice (win2_7.rect t)).set ↔ _
  rw [View.set_slice_whole, Rect.mem_set_unit]
  exact Iff.rfl

/-- Every row is in the tile of the point numbered by the row divided by 5000. -/
theorem cover_b2 (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  have e := tile_index2 ⟨(i 0).val / 5000, ht⟩
  have e0 : win2_7.index ⟨(i 0).val / 5000, ht⟩ (0 : Fin 2) = (i 0).val / 5000 := e.2.2.2.2.2.2.2.2.2.2.2.2.2.2.1
  have e1 : win2_7.index ⟨(i 0).val / 5000, ht⟩ (1 : Fin 2) = 0 := e.2.2.2.2.2.2.2.2.2.2.2.2.2.2.2.1
  refine ⟨⟨(i 0).val / 5000, ht⟩, flush2_7 _, ?_⟩
  rw [mem_tile_b2]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e0]; omega
  | ⟨1, _⟩ =>
    show win2_7.index ⟨(i 0).val / 5000, ht⟩ (1 : Fin 2) * 64 ≤ (i 1).val ∧ (i 1).val < win2_7.index ⟨(i 0).val / 5000, ht⟩ (1 : Fin 2) * 64 + 64
    rw [e1]; omega

/-- The array of the b image after the region is the specification's function of the arrays the region found. -/
theorem b2 : (dat2 (F := Ideal) V c).arrAt 7 cfg2.N = Cert.Layer.linear (V c (Pipeline.arrRef spec2 0)) (V c (Pipeline.arrRef spec2 3)) :=
  (dat2 (F := Ideal) V c).arrAt_eq_of_cover 7 (Cert.Layer.linear (V c (Pipeline.arrRef spec2 0)) (V c (Pipeline.arrRef spec2 3))) (fun t _ => flushed_b2 V c t) (cover_b2)

/-- What point t writes back to the array of the root image is tile t of the specification's function. -/
theorem flushed_root2 (t : Fin cfg2.N) :
    (dat2 (F := Ideal) V c).flushed 8 t = ((cfg2.win 8).blk t).view.read (Elt Ideal) (Cert.Layer.affine (V c (Pipeline.arrRef spec2 0)) (V c (Pipeline.arrRef spec2 4)) (V c (Pipeline.arrRef spec2 5))) := by
  have e := tile_index2 t
  have e0 : win2_8.index t (0 : Fin 2) = t.val := e.2.2.2.2.2.2.2.2.2.2.2.2.2.2.2.2.1
  have e1 : win2_8.index t (1 : Fin 2) = 0 := e.2.2.2.2.2.2.2.2.2.2.2.2.2.2.2.2.2
  show (cfg2.win 8).cut (grid2.coords t) ((dat2 V c).after 8 t) = _
  rw [after2_8]
  unfold out2_8
  rw [View.canon_unit_zero origin]
  simp only [View.ld_unit_zero (S := S5000x64) origin, View.ld_unit_zero (S := S64x64) origin, View.ld_unit_zero (S := S1x64) origin]
  funext j
  show k2_pay4 (iblk2 V c 0 t) (iblk2 V c 4 t) (iblk2 V c 5 t) j = (Cert.Layer.affine (V c (Pipeline.arrRef spec2 0)) (V c (Pipeline.arrRef spec2 4)) (V c (Pipeline.arrRef spec2 5))) (((cfg2.win 8).blk t).view.emb j)
  rw [whole2_4 V c t, whole2_5 V c t]
  refine (congrArg _ (eq_ix2 (j : S5000x64.Idx))).trans (tile_root2 _ _ _ _ (j 0) (j 1) _ (fun k => x_tile2 V c t (j 0) k _ ?_) ?_)
  · show win2_8.index t (0 : Fin 2) * 5000 + 1 * (j 0).val = 5000 * t.val + (j 0).val
    rw [e0]; omega
  · apply Fin.ext
    show win2_8.index t (1 : Fin 2) * 64 + 1 * (j 1).val = (j 1).val
    rw [e1]; omega

/-- A row and column are in point t's tile of the root image iff the row is among the tile's 5000 and the column among the 64. -/
theorem mem_tile_root2 (t : Fin cfg2.N) (i : S50000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v29_2).slice (win2_8.rect t)).set ↔ _
  rw [View.set_slice_whole, Rect.mem_set_unit]
  exact Iff.rfl

/-- Every row is in the tile of the point numbered by the row divided by 5000. -/
theorem cover_root2 (i : S50000x64.Idx) :
    ∃ t : Fin cfg2.N, (cfg2.win 8).flush t = true ∧ i ∈ ((cfg2.win 8).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  have e := tile_index2 ⟨(i 0).val / 5000, ht⟩
  have e0 : win2_8.index ⟨(i 0).val / 5000, ht⟩ (0 : Fin 2) = (i 0).val / 5000 := e.2.2.2.2.2.2.2.2.2.2.2.2.2.2.2.2.1
  have e1 : win2_8.index ⟨(i 0).val / 5000, ht⟩ (1 : Fin 2) = 0 := e.2.2.2.2.2.2.2.2.2.2.2.2.2.2.2.2.2
  refine ⟨⟨(i 0).val / 5000, ht⟩, flush2_8 _, ?_⟩
  rw [mem_tile_root2]
  intro a
  match a with
  | ⟨0, _⟩ =>
    show win2_8.index ⟨(i 0).val / 5000, ht⟩ (0 : Fin 2) * 5000 ≤ (i 0).val ∧ (i 0).val < win2_8.index ⟨(i 0).val / 5000, ht⟩ (0 : Fin 2) * 5000 + 5000
    rw [e0]; omega
  | ⟨1, _⟩ =>
    show win2_8.index ⟨(i 0).val / 5000, ht⟩ (1 : Fin 2) * 64 ≤ (i 1).val ∧ (i 1).val < win2_8.index ⟨(i 0).val / 5000, ht⟩ (1 : Fin 2) * 64 + 64
    rw [e1]; omega

/-- The array of the root image after the region is the specification's function of the arrays the region found. -/
theorem root2 : (dat2 (F := Ideal) V c).arrAt 8 cfg2.N = Cert.Layer.affine (V c (Pipeline.arrRef spec2 0)) (V c (Pipeline.arrRef spec2 4)) (V c (Pipeline.arrRef spec2 5)) :=
  (dat2 (F := Ideal) V c).arrAt_eq_of_cover 8 (Cert.Layer.affine (V c (Pipeline.arrRef spec2 0)) (V c (Pipeline.arrRef spec2 4)) (V c (Pipeline.arrRef spec2 5))) (fun t _ => flushed_root2 V c t) (cover_root2)

end Region2

end Cert.KernelIdeal.Project

end
-- ==== Proof.ProjectValue4.lean ====
/-
  The third projection region of the kernel, read as whole-array functions.

  The region walks the 50000 rows of the node array in 10 tiles of 5000 rows. On a tile it forms three
  images of the tile's rows: the rows times a 64×64 matrix plus a bias row, the rows times a second
  matrix, and the rows times a third matrix plus a second bias row; each image is written back to the
  same rows of its own output array. Entry (p, q) of a product on a tile is the sum over the 64 shared
  features k of the tile's entry (p, k) times the matrix's entry (k, q); the narrowing of the factors
  before the product is the identity on extended reals, and the accumulator starts from zero. Row p of
  tile t is row 5000·t + p of the array and the matrices and bias rows are read whole at every tile, so
  what tile t writes is rows 5000·t … 5000·t + 4999 of the whole-array image. The ten tiles cover all
  rows, hence each output array ends as the whole-array image.
-/
import proofs.«114584_j80015240725026_1_alg».proof.Proof.Gen.KernelIdeal.Frame
import proofs.«114584_j80015240725026_1_alg».proof.Proof.Layer
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Project4

open Idealize.ShloMosaic Idealize.ShloMosaic.ValueIdx Idealize.ShloMosaic.TcCoe Idealize.SL.Sem
open Idealize.ShloMosaic.Pipeline (Dat)
open Cert.KernelIdeal Cert.KernelIdeal.Gen

/-! ## A tile's product at an entry -/

/-- The left factor's row is the entry's row. -/
theorem left_row (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left factor's column is the shared feature. -/
theorem left_col (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single rfl j k

/-- The right factor's row is the shared feature. -/
theorem right_row (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single rfl j k

/-- The right factor's column is the entry's column. -/
theorem right_col (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile times a matrix into the zero accumulator: entry (p, q) is the sum over k of x (p, k) · w (k, q). -/
theorem product_at (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  show FloatOps.matmul dot_S5000x64_S64x64_S5000x64_1_0_0_1_n_n none x w (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact left_row _ _
    | ⟨1, _⟩ => exact (left_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (right_row _ _).trans hk
    | ⟨1, _⟩ => exact right_col _ _)
  rw [el, er]

/-! ## The three images of a tile at an entry -/

/-- First image: product plus the bias row. -/
theorem image_a_at (x0 : Vec Ideal S5000x64 .f32) (w : Vec Ideal S64x64 .f32) (r : Vec Ideal S1x64 .f32) (p : Fin 5000) (q : Fin 64) :
    k4_pay2 x0 w r (ix2 p q) = (∑ k : Fin 64, x0 (ix2 p k) * w (ix2 k q)) + r (ix2 (0 : Fin 1) q) := by
  have h : k4_pay2 x0 w r (ix2 p q)
      = matmul dot_S5000x64_S64x64_S5000x64_1_0_0_1_n_n none
          (truncf .bf16 (shapeCast S5000x64 x0 shapeCasts_S5000x64_S5000x64) bitsLt_bf16_f32 : FVec Ideal S5000x64 .bf16)
          (truncf .bf16 w bitsLt_bf16_f32 : FVec Ideal S64x64 .bf16) (constant (F := Ideal) S5000x64 .f32 0x00000000#32) (ix2 p q)
        + broadcastTo S5000x64 (shapeCast S1x64 r shapeCasts_S1x64_S1x64) broadcasts_S1x64_S5000x64 (ix2 p q) := rfl
  rw [h, product_at, broadcastTo_1b_ab_apply, shapeCast_self, shapeCast_self]
  rfl

/-- Second image: the product alone. -/
theorem image_b_at (x0 : Vec Ideal S5000x64 .f32) (w : Vec Ideal S64x64 .f32) (p : Fin 5000) (q : Fin 64) :
    k4_pay3 x0 w (ix2 p q) = ∑ k : Fin 64, x0 (ix2 p k) * w (ix2 k q) := by
  have h : k4_pay3 x0 w (ix2 p q)
      = matmul dot_S5000x64_S64x64_S5000x64_1_0_0_1_n_n none
          (truncf .bf16 (shapeCast S5000x64 x0 shapeCasts_S5000x64_S5000x64) bitsLt_bf16_f32 : FVec Ideal S5000x64 .bf16)
          (truncf .bf16 w bitsLt_bf16_f32 : FVec Ideal S64x64 .bf16) (constant (F := Ideal) S5000x64 .f32 0x00000000#32) (ix2 p q) := rfl
  rw [h, product_at, shapeCast_self]
  rfl

/-- Third image: product plus the second bias row. -/
theorem image_root_at (x0 : Vec Ideal S5000x64 .f32) (w : Vec Ideal S64x64 .f32) (r : Vec Ideal S1x64 .f32) (p : Fin 5000) (q : Fin 64) :
    k4_pay4 x0 w r (ix2 p q) = (∑ k : Fin 64, x0 (ix2 p k) * w (ix2 k q)) + r (ix2 (0 : Fin 1) q) := by
  have h : k4_pay4 x0 w r (ix2 p q)
      = matmul dot_S5000x64_S64x64_S5000x64_1_0_0_1_n_n none
          (truncf .bf16 (shapeCast S5000x64 x0 shapeCasts_S5000x64_S5000x64) bitsLt_bf16_f32 : FVec Ideal S5000x64 .bf16)
          (truncf .bf16 w bitsLt_bf16_f32 : FVec Ideal S64x64 .bf16) (constant (F := Ideal) S5000x64 .f32 0x00000000#32) (ix2 p q)
        + broadcastTo S5000x64 (shapeCast S1x64 r shapeCasts_S1x64_S1x64) broadcasts_S1x64_S5000x64 (ix2 p q) := rfl
  rw [h, product_at, broadcastTo_1b_ab_apply, shapeCast_self, shapeCast_self]
  rfl

/-! ## Where a tile's entries sit in the arrays -/

theorem hz : (![0, 0] : Fin 2 → Nat) = fun _ => 0 := funext fun a => by fin_cases a <;> rfl

/-- The tiles' positions, decided once over the ten tiles: tile t of the node array and of each output
    array is block (t, 0); every matrix and bias row is block (0, 0). -/
theorem tile_positions : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Row p of tile t of the node array is row 5000·t + p of the array, at the same column. -/
theorem node_tile_at (t : Fin cfg4.N) (p : Fin 5000) (k : Fin 64) (hp : 5000 * t.val + p.val < 50000) :
    ((cfg4.win 0).blk t).view.emb (ix2 p k) = ix2 (⟨5000 * t.val + p.val, hp⟩ : Fin 50000) k := by
  obtain ⟨e00, e01, e10, e11, e20, e21, e30, e31, e40, e41, e50, e51, e60, e61, e70, e71, e80, e81⟩ := tile_positions t
  funext a; apply Fin.ext
  match a with
  | ⟨0, _⟩ =>
    refine (win4_0.rect_emb_val t (ix2 p k) 0).trans ?_
    rw [e00]
    show t.val * 5000 + p.val = 5000 * t.val + p.val
    omega
  | ⟨1, _⟩ =>
    refine (win4_0.rect_emb_val t (ix2 p k) 1).trans ?_
    rw [e01]
    show 0 * 64 + k.val = k.val
    omega

/-- Row p of tile t of the first output is row 5000·t + p of that array, at the same column. -/
theorem image_a_tile_at (t : Fin cfg4.N) (p : Fin 5000) (k : Fin 64) (hp : 5000 * t.val + p.val < 50000) :
    ((cfg4.win 6).blk t).view.emb (ix2 p k) = ix2 (⟨5000 * t.val + p.val, hp⟩ : Fin 50000) k := by
  obtain ⟨e00, e01, e10, e11, e20, e21, e30, e31, e40, e41, e50, e51, e60, e61, e70, e71, e80, e81⟩ := tile_positions t
  funext a; apply Fin.ext
  match a with
  | ⟨0, _⟩ =>
    refine (win4_6.rect_emb_val t (ix2 p k) 0).trans ?_
    rw [e60]
    show t.val * 5000 + p.val = 5000 * t.val + p.val
    omega
  | ⟨1, _⟩ =>
    refine (win4_6.rect_emb_val t (ix2 p k) 1).trans ?_
    rw [e61]
    show 0 * 64 + k.val = k.val
    omega

/-- Row p of tile t of the second output is row 5000·t + p of that array, at the same column. -/
theorem image_b_tile_at (t : Fin cfg4.N) (p : Fin 5000) (k : Fin 64) (hp : 5000 * t.val + p.val < 50000) :
    ((cfg4.win 7).blk t).view.emb (ix2 p k) = ix2 (⟨5000 * t.val + p.val, hp⟩ : Fin 50000) k := by
  obtain ⟨e00, e01, e10, e11, e20, e21, e30, e31, e40, e41, e50, e51, e60, e61, e70, e71, e80, e81⟩ := tile_positions t
  funext a; apply Fin.ext
  match a with
  | ⟨0, _⟩ =>
    refine (win4_7.rect_emb_val t (ix2 p k) 0).trans ?_
    rw [e70]
    show t.val * 5000 + p.val = 5000 * t.val + p.val
    omega
  | ⟨1, _⟩ =>
    refine (win4_7.rect_emb_val t (ix2 p k) 1).trans ?_
    rw [e71]
    show 0 * 64 + k.val = k.val
    omega

/-- Row p of tile t of the third output is row 5000·t + p of that array, at the same column. -/
theorem image_root_tile_at (t : Fin cfg4.N) (p : Fin 5000) (k : Fin 64) (hp : 5000 * t.val + p.val < 50000) :
    ((cfg4.win 8).blk t).view.emb (ix2 p k) = ix2 (⟨5000 * t.val + p.val, hp⟩ : Fin 50000) k := by
  obtain ⟨e00, e01, e10, e11, e20, e21, e30, e31, e40, e41, e50, e51, e60, e61, e70, e71, e80, e81⟩ := tile_positions t
  funext a; apply Fin.ext
  match a with
  | ⟨0, _⟩ =>
    refine (win4_8.rect_emb_val t (ix2 p k) 0).trans ?_
    rw [e80]
    show t.val * 5000 + p.val = 5000 * t.val + p.val
    omega
  | ⟨1, _⟩ =>
    refine (win4_8.rect_emb_val t (ix2 p k) 1).trans ?_
    rw [e81]
    show 0 * 64 + k.val = k.val
    omega

/-- The first matrix is read whole at every tile. -/
theorem matrix_a_at (t : Fin cfg4.N) (k q : Fin 64) : ((cfg4.win 1).blk t).view.emb (ix2 k q) = ix2 k q := by
  obtain ⟨e00, e01, e10, e11, e20, e21, e30, e31, e40, e41, e50, e51, e60, e61, e70, e71, e80, e81⟩ := tile_positions t
  funext a; apply Fin.ext
  match a with
  | ⟨0, _⟩ =>
    refine (win4_1.rect_emb_val t (ix2 k q) 0).trans ?_
    rw [e10]
    show 0 * 64 + k.val = k.val
    omega
  | ⟨1, _⟩ =>
    refine (win4_1.rect_emb_val t (ix2 k q) 1).trans ?_
    rw [e11]
    show 0 * 64 + q.val = q.val
    omega

/-- The second matrix is read whole at every tile. -/
theorem matrix_b_at (t : Fin cfg4.N) (k q : Fin 64) : ((cfg4.win 3).blk t).view.emb (ix2 k q) = ix2 k q := by
  obtain ⟨e00, e01, e10, e11, e20, e21, e30, e31, e40, e41, e50, e51, e60, e61, e70, e71, e80, e81⟩ := tile_positions t
  funext a; apply Fin.ext
  match a with
  | ⟨0, _⟩ =>
    refine (win4_3.rect_emb_val t (ix2 k q) 0).trans ?_
    rw [e30]
    show 0 * 64 + k.val = k.val
    omega
  | ⟨1, _⟩ =>
    refine (win4_3.rect_emb_val t (ix2 k q) 1).trans ?_
    rw [e31]
    show 0 * 64 + q.val = q.val
    omega

/-- The third matrix is read whole at every tile. -/
theorem matrix_root_at (t : Fin cfg4.N) (k q : Fin 64) : ((cfg4.win 4).blk t).view.emb (ix2 k q) = ix2 k q := by
  obtain ⟨e00, e01, e10, e11, e20, e21, e30, e31, e40, e41, e50, e51, e60, e61, e70, e71, e80, e81⟩ := tile_positions t
  funext a; apply Fin.ext
  match a with
  | ⟨0, _⟩ =>
    refine (win4_4.rect_emb_val t (ix2 k q) 0).trans ?_
    rw [e40]
    show 0 * 64 + k.val = k.val
    omega
  | ⟨1, _⟩ =>
    refine (win4_4.rect_emb_val t (ix2 k q) 1).trans ?_
    rw [e41]
    show 0 * 64 + q.val = q.val
    omega

/-- The first bias row is read whole at every tile. -/
theorem bias_a_at (t : Fin cfg4.N) (q : Fin 64) : ((cfg4.win 2).blk t).view.emb (ix2 (0 : Fin 1) q) = ix2 (0 : Fin 1) q := by
  obtain ⟨e00, e01, e10, e11, e20, e21, e30, e31, e40, e41, e50, e51, e60, e61, e70, e71, e80, e81⟩ := tile_positions t
  funext a; apply Fin.ext
  match a with
  | ⟨0, _⟩ =>
    refine (win4_2.rect_emb_val t (ix2 (0 : Fin 1) q) 0).trans ?_
    rw [e20]
    show 0 * 1 + 0 = 0
    omega
  | ⟨1, _⟩ =>
    refine (win4_2.rect_emb_val t (ix2 (0 : Fin 1) q) 1).trans ?_
    rw [e21]
    show 0 * 64 + q.val = q.val
    omega

/-- The second bias row is read whole at every tile. -/
theorem bias_root_at (t : Fin cfg4.N) (q : Fin 64) : ((cfg4.win 5).blk t).view.emb (ix2 (0 : Fin 1) q) = ix2 (0 : Fin 1) q := by
  obtain ⟨e00, e01, e10, e11, e20, e21, e30, e31, e40, e41, e50, e51, e60, e61, e70, e71, e80, e81⟩ := tile_positions t
  funext a; apply Fin.ext
  match a with
  | ⟨0, _⟩ =>
    refine (win4_5.rect_emb_val t (ix2 (0 : Fin 1) q) 0).trans ?_
    rw [e50]
    show 0 * 1 + 0 = 0
    omega
  | ⟨1, _⟩ =>
    refine (win4_5.rect_emb_val t (ix2 (0 : Fin 1) q) 1).trans ?_
    rw [e51]
    show 0 * 64 + q.val = q.val
    omega

/-! ## What a tile writes back -/

section
variable (V : (c : Dev nD) → (b : Ref sig .tc) → Buf (Elt Ideal) ((c : Thread nD τ).loc b)) (c : Dev nD)

/-- Tile t of the first output is rows 5000·t … 5000·t + 4999 of the first whole-array image. -/
theorem written_a (t : Fin cfg4.N) :
    (dat4 (F := Ideal) V c).flushed 6 t = ((cfg4.win 6).blk t).view.read (Elt Ideal)
      (Cert.Layer.affine (V c (Pipeline.arrRef spec4 0)) (V c (Pipeline.arrRef spec4 1)) (V c (Pipeline.arrRef spec4 2))) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (image_a_at (iblk4 V c 0 t) (iblk4 V c 1 t) (iblk4 V c 2 t) p q).trans ?_
  have hN : t.val < 10 := lt_of_lt_of_eq t.isLt (N_4 : cfg4.N = 10)
  have hp : 5000 * t.val + p.val < 50000 := by have := p.isLt; omega
  have key : ∀ (X : FVec Ideal S50000x64 .f32) (W : FVec Ideal S64x64 .f32) (B : FVec Ideal S1x64 .f32),
      (∑ k : Fin 64, X (((cfg4.win 0).blk t).view.emb (ix2 p k)) * W (((cfg4.win 1).blk t).view.emb (ix2 k q)))
          + B (((cfg4.win 2).blk t).view.emb (ix2 (0 : Fin 1) q))
        = Cert.Layer.affine X W B (((cfg4.win 6).blk t).view.emb (ix2 p q)) := by
    intro X W B
    rw [image_a_tile_at t p q hp, bias_a_at t q]
    simp only [node_tile_at t p _ hp, matrix_a_at t]
    rfl
  exact key (V c (Pipeline.arrRef spec4 0)) (V c (Pipeline.arrRef spec4 1)) (V c (Pipeline.arrRef spec4 2))

/-- Tile t of the second output is rows 5000·t … 5000·t + 4999 of the second whole-array image. -/
theorem written_b (t : Fin cfg4.N) :
    (dat4 (F := Ideal) V c).flushed 7 t = ((cfg4.win 7).blk t).view.read (Elt Ideal)
      (Cert.Layer.linear (V c (Pipeline.arrRef spec4 0)) (V c (Pipeline.arrRef spec4 3))) := by
  show (cfg4.win 7).cut (grid4.coords t) ((dat4 V c).after 7 t) = _
  rw [after4_7]
  unfold out4_7
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (image_b_at (iblk4 V c 0 t) (iblk4 V c 3 t) p q).trans ?_
  have hN : t.val < 10 := lt_of_lt_of_eq t.isLt (N_4 : cfg4.N = 10)
  have hp : 5000 * t.val + p.val < 50000 := by have := p.isLt; omega
  have key : ∀ (X : FVec Ideal S50000x64 .f32) (W : FVec Ideal S64x64 .f32),
      (∑ k : Fin 64, X (((cfg4.win 0).blk t).view.emb (ix2 p k)) * W (((cfg4.win 3).blk t).view.emb (ix2 k q)))
        = Cert.Layer.linear X W (((cfg4.win 7).blk t).view.emb (ix2 p q)) := by
    intro X W
    rw [image_b_tile_at t p q hp]
    simp only [node_tile_at t p _ hp, matrix_b_at t]
    rfl
  exact key (V c (Pipeline.arrRef spec4 0)) (V c (Pipeline.arrRef spec4 3))

/-- Tile t of the third output is rows 5000·t … 5000·t + 4999 of the third whole-array image. -/
theorem written_root (t : Fin cfg4.N) :
    (dat4 (F := Ideal) V c).flushed 8 t = ((cfg4.win 8).blk t).view.read (Elt Ideal)
      (Cert.Layer.affine (V c (Pipeline.arrRef spec4 0)) (V c (Pipeline.arrRef spec4 4)) (V c (Pipeline.arrRef spec4 5))) := by
  show (cfg4.win 8).cut (grid4.coords t) ((dat4 V c).after 8 t) = _
  rw [after4_8]
  unfold out4_8
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (image_root_at (iblk4 V c 0 t) (iblk4 V c 4 t) (iblk4 V c 5 t) p q).trans ?_
  have hN : t.val < 10 := lt_of_lt_of_eq t.isLt (N_4 : cfg4.N = 10)
  have hp : 5000 * t.val + p.val < 50000 := by have := p.isLt; omega
  have key : ∀ (X : FVec Ideal S50000x64 .f32) (W : FVec Ideal S64x64 .f32) (B : FVec Ideal S1x64 .f32),
      (∑ k : Fin 64, X (((cfg4.win 0).blk t).view.emb (ix2 p k)) * W (((cfg4.win 4).blk t).view.emb (ix2 k q)))
          + B (((cfg4.win 5).blk t).view.emb (ix2 (0 : Fin 1) q))
        = Cert.Layer.affine X W B (((cfg4.win 8).blk t).view.emb (ix2 p q)) := by
    intro X W B
    rw [image_root_tile_at t p q hp, bias_root_at t q]
    simp only [node_tile_at t p _ hp, matrix_root_at t]
    rfl
  exact key (V c (Pipeline.arrRef spec4 0)) (V c (Pipeline.arrRef spec4 4)) (V c (Pipeline.arrRef spec4 5))

end

/-! ## The ten tiles cover the rows -/

/-- An entry of the first output lies in tile t exactly when each of its coordinates is in the tile's range. -/
theorem mem_tile_a (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v52_0).slice (win4_6.rect t)).set ↔ _
  rw [View.set_slice_whole, Rect.mem_set_unit]
  exact Iff.rfl

/-- Every entry of the first output is written by the tile its row falls in: row r lies in tile r / 5000. -/
theorem covered_a (i : S50000x64.Idx) :
    ∃ t : Fin cfg4.N, (cfg4.win 6).flush t = true ∧ i ∈ ((cfg4.win 6).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, lt_of_lt_of_eq (by omega : (i 0).val / 5000 < 10) (N_4 : cfg4.N = 10).symm⟩, rfl⟩
  obtain ⟨e00, e01, e10, e11, e20, e21, e30, e31, e40, e41, e50, e51, e60, e61, e70, e71, e80, e81⟩ := tile_positions t
  refine ⟨t, flush4_6 t, ?_⟩
  rw [mem_tile_a]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-- An entry of the second output lies in tile t exactly when each of its coordinates is in the tile's range. -/
theorem mem_tile_b (t : Fin cfg4.N) (i : S50000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v52_1).slice (win4_7.rect t)).set ↔ _
  rw [View.set_slice_whole, Rect.mem_set_unit]
  exact Iff.rfl

/-- Every entry of the second output is written by the tile its row falls in: row r lies in tile r / 5000. -/
theorem covered_b (i : S50000x64.Idx) :
    ∃ t : Fin cfg4.N, (cfg4.win 7).flush t = true ∧ i ∈ ((cfg4.win 7).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, lt_of_lt_of_eq (by omega : (i 0).val / 5000 < 10) (N_4 : cfg4.N = 10).symm⟩, rfl⟩
  obtain ⟨e00, e01, e10, e11, e20, e21, e30, e31, e40, e41, e50, e51, e60, e61, e70, e71, e80, e81⟩ := tile_positions t
  refine ⟨t, flush4_7 t, ?_⟩
  rw [mem_tile_b]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 64 ≤ (i 1).val ∧ (i 1).val < win4_7.index t (1 : Fin 2) * 64 + 64; omega

/-- An entry of the third output lies in tile t exactly when each of its coordinates is in the tile's range. -/
theorem mem_tile_root (t : Fin cfg4.N) (i : S50000x64.Idx) :
    i ∈ ((cfg4.win 8).blk t).view.set ↔ ∀ a : Fin 2, win4_8.index t a * S5000x64.size a ≤ (i a).val ∧ (i a).val < win4_8.index t a * S5000x64.size a + S5000x64.size a := by
  show i ∈ ((View.whole main_v52_2).slice (win4_8.rect t)).set ↔ _
  rw [View.set_slice_whole, Rect.mem_set_unit]
  exact Iff.rfl

/-- Every entry of the third output is written by the tile its row falls in: row r lies in tile r / 5000. -/
theorem covered_root (i : S50000x64.Idx) :
    ∃ t : Fin cfg4.N, (cfg4.win 8).flush t = true ∧ i ∈ ((cfg4.win 8).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, lt_of_lt_of_eq (by omega : (i 0).val / 5000 < 10) (N_4 : cfg4.N = 10).symm⟩, rfl⟩
  obtain ⟨e00, e01, e10, e11, e20, e21, e30, e31, e40, e41, e50, e51, e60, e61, e70, e71, e80, e81⟩ := tile_positions t
  refine ⟨t, flush4_8 t, ?_⟩
  rw [mem_tile_root]
  intro a
  match a with
  | ⟨0, _⟩ => show win4_8.index t (0 : Fin 2) * 5000 ≤ (i 0).val ∧ (i 0).val < win4_8.index t (0 : Fin 2) * 5000 + 5000; omega
  | ⟨1, _⟩ => show win4_8.index t (1 : Fin 2) * 64 ≤ (i 1).val ∧ (i 1).val < win4_8.index t (1 : Fin 2) * 64 + 64; omega

/-! ## The three output arrays after the region -/

section
variable (V : (c : Dev nD) → (b : Ref sig .tc) → Buf (Elt Ideal) ((c : Thread nD τ).loc b)) (c : Dev nD)

/-- The first output array ends as the node array times the first matrix plus the first bias row. -/
theorem a4 : (dat4 (F := Ideal) V c).arrAt 6 cfg4.N
    = Cert.Layer.affine (V c (Pipeline.arrRef spec4 0)) (V c (Pipeline.arrRef spec4 1)) (V c (Pipeline.arrRef spec4 2)) :=
  (dat4 (F := Ideal) V c).arrAt_eq_of_cover 6 _ (fun t _ => written_a V c t) covered_a

/-- The second output array ends as the node array times the second matrix. -/
theorem b4 : (dat4 (F := Ideal) V c).arrAt 7 cfg4.N
    = Cert.Layer.linear (V c (Pipeline.arrRef spec4 0)) (V c (Pipeline.arrRef spec4 3)) :=
  (dat4 (F := Ideal) V c).arrAt_eq_of_cover 7 _ (fun t _ => written_b V c t) covered_b

/-- The third output array ends as the node array times the third matrix plus the second bias row. -/
theorem root4 : (dat4 (F := Ideal) V c).arrAt 8 cfg4.N
    = Cert.Layer.affine (V c (Pipeline.arrRef spec4 0)) (V c (Pipeline.arrRef spec4 4)) (V c (Pipeline.arrRef spec4 5)) :=
  (dat4 (F := Ideal) V c).arrAt_eq_of_cover 8 _ (fun t _ => written_root V c t) covered_root

end

end Cert.KernelIdeal.Project4

end
-- ==== Proof.FinalizeValue.lean ====
/-
  The value of the network's three "finalize" steps, one per layer.

  Each step takes four arrays — the aggregate of the edge messages and the root image of the node
  array (50000 rows of 64 features each), a 64×64 weight matrix and a bias row of 64 — and works
  through the rows in ten tiles of 5000. On a tile it adds the aggregate's rows to the root image's,
  multiplies by the weight matrix, adds the bias row to every row and clips below at zero. Read over
  the extended reals, entry (p, q) of a tile's product is the plain sum over the 64 shared features
  k of (aggregate (p, k) + root (p, k)) · weight (k, q): no law of arithmetic is used beyond that
  reading. Row p of tile t is row 5000·t + p of the array, the weight matrix and the bias row are
  the same at every tile, and the ten tiles cover the 50000 rows; so the array each step leaves is
  the layer's last step (`Cert.Layer.update`) of its four arrays, index by index.
-/
import proofs.«114584_j80015240725026_1_alg».proof.Proof.Gen.KernelIdeal.Frame
import proofs.«114584_j80015240725026_1_alg».proof.Proof.Layer
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The matrix product's left operand index at output (i, ·) and contraction index k: its row is i's row. -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Its column is the contraction index. -/
theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k

/-- The right operand's row is the contraction index. -/
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k

/-- Its column is i's column. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000×64 block times a 64×64 matrix, entry (p, q): the sum over the 64 shared features k of
    l (p, k) · r (k, q), for any two functions l, r of the operand indices. -/
theorem product_sum (l : S5000x64.Idx → EReal) (r : S64x64.Idx → EReal) (p : Fin 5000) (q : Fin 64) :
    (∑ k : dot_S5000x64_S64x64_S5000x64_1_0_0_1_n_n.contr.Idx,
        l (dot_S5000x64_S64x64_S5000x64_1_0_0_1_n_n.lhsIdx (ix2 p q) k)
          * r (dot_S5000x64_S64x64_S5000x64_1_0_0_1_n_n.rhsIdx (ix2 p q) k))
      = ∑ k : Fin 64, l (ix2 p k) * r (ix2 k q) := by
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The first finalize region's body at entry (p, q) of its block: the aggregate block plus the root
    block, times the weight matrix read as the plain sum over the 64 shared features, plus the bias
    row, clipped below at the zero word. -/
theorem payload1_apply (x0 x1 : Vec Ideal S5000x64 .f32) (w : Vec Ideal S64x64 .f32) (r : Vec Ideal S1x64 .f32)
    (p : Fin 5000) (q : Fin 64) :
    k1_pay1 (F := Ideal) x0 x1 w r (ix2 p q)
      = max ((∑ k : Fin 64, (x0 (ix2 p k) + x1 (ix2 p k)) * w (ix2 k q)) + r (ix2 (0 : Fin 1) q))
          (Ideal.ofBits .f32 0x00000000#32) := by
  unfold k1_pay1
  simp only [maximumf_apply, addf_apply, broadcast_apply, truncf_apply, shapeCast_self,
    Ideal.matmul_constant_zero_apply, broadcastTo_1b_ab_apply]
  rw [product_sum (fun i => x0 i + x1 i) w p q]
  rfl

/-- If the four blocks the body loads are, entry by entry, the aggregate's and the root image's row
    i₀, the weight matrix and the bias row at column i₁, then the body's entry (p, q) is the layer's
    last step at array index i = (i₀, i₁). -/
theorem entry_of_reads (A R : FVec Ideal Cert.Layer.Nodes .f32) (W : FVec Ideal Cert.Layer.Square .f32)
    (B : FVec Ideal Cert.Layer.Row .f32)
    (x0 x1 : Vec Ideal S5000x64 .f32) (w : Vec Ideal S64x64 .f32) (r : Vec Ideal S1x64 .f32)
    (p : Fin 5000) (q : Fin 64) (i : Cert.Layer.Nodes.Idx)
    (h0 : ∀ k : Fin 64, x0 (ix2 p k) = A (ix2 (i 0) k))
    (h1 : ∀ k : Fin 64, x1 (ix2 p k) = R (ix2 (i 0) k))
    (h2 : ∀ k : Fin 64, w (ix2 k q) = W (ix2 k (i 1)))
    (h3 : r (ix2 (0 : Fin 1) q) = B (ix2 (0 : Fin 1) (i 1))) :
    k1_pay1 (F := Ideal) x0 x1 w r (ix2 p q) = Cert.Layer.update A R W B i := by
  rw [payload1_apply]
  unfold Cert.Layer.update
  simp only [h0, h1, h2, h3]

variable (V : (c : Dev nD) → (b : Ref sig .tc) → Buf (Elt Ideal) ((c : Thread nD τ).loc b))

theorem origin_zero : (![0, 0] : Fin 2 → Nat) = fun _ => 0 := funext fun a => by fin_cases a <;> rfl

theorem index_facts1 : ∀ t : Fin cfg1.N,
      win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Region 1: each loaded block read where the output block's rectangle says -/

/-- The aggregate's block at point t, entry (p, k), is the aggregate at the output block's row. -/
theorem read_agg1 (c : Dev nD) (t : Fin cfg1.N) (p : Fin 5000) (q k : Fin 64) :
    iblk1 V c 0 t (ix2 p k)
      = (V c (Pipeline.arrRef spec1 0) : FVec Ideal Cert.Layer.Nodes .f32)
          (ix2 ((((cfg1.win 4).blk t).view.emb (ix2 p q)) 0) k) := by
  obtain ⟨e00, e01, -⟩ := index_facts1 t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = win1_4.index t (0 : Fin 2) * 5000 + 1 * p.val; omega
  | ⟨1, _⟩ => show win1_0.index t (1 : Fin 2) * 64 + 1 * k.val = k.val; omega

/-- The root image's block at point t covers the same rows. -/
theorem read_root1 (c : Dev nD) (t : Fin cfg1.N) (p : Fin 5000) (q k : Fin 64) :
    iblk1 V c 1 t (ix2 p k)
      = (V c (Pipeline.arrRef spec1 1) : FVec Ideal Cert.Layer.Nodes .f32)
          (ix2 ((((cfg1.win 4).blk t).view.emb (ix2 p q)) 0) k) := by
  obtain ⟨-, -, e10, e11, -⟩ := index_facts1 t
  show V c (Pipeline.arrRef spec1 1) (((cfg1.win 1).blk t).view.emb (ix2 p k)) = _
  refine congrArg _ (funext fun a => Fin.ext ?_)
  match a with
  | ⟨0, _⟩ => show win1_1.index t (0 : Fin 2) * 5000 + 1 * p.val = win1_4.index t (0 : Fin 2) * 5000 + 1 * p.val; omega
  | ⟨1, _⟩ => show win1_1.index t (1 : Fin 2) * 64 + 1 * k.val = k.val; omega

/-- The weight matrix is loaded whole at every point. -/
theorem read_weight1 (c : Dev nD) (t : Fin cfg1.N) (p : Fin 5000) (q k : Fin 64) :
    iblk1 V c 2 t (ix2 k q)
      = (V c (Pipeline.arrRef spec1 2) : FVec Ideal Cert.Layer.Square .f32)
          (ix2 k ((((cfg1.win 4).blk t).view.emb (ix2 p q)) 1)) := by
  obtain ⟨-, -, -, -, e20, e21, -, -, -, e41⟩ := index_facts1 t
  show V c (Pipeline.arrRef spec1 2) (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = win1_4.index t (1 : Fin 2) * 64 + 1 * q.val; omega

/-- So is the bias row. -/
theorem read_bias1 (c : Dev nD) (t : Fin cfg1.N) (p : Fin 5000) (q : Fin 64) :
    iblk1 V c 3 t (ix2 (0 : Fin 1) q)
      = (V c (Pipeline.arrRef spec1 3) : FVec Ideal Cert.Layer.Row .f32)
          (ix2 (0 : Fin 1) ((((cfg1.win 4).blk t).view.emb (ix2 p q)) 1)) := by
  obtain ⟨-, -, -, -, -, -, e30, e31, -, e41⟩ := index_facts1 t
  show V c (Pipeline.arrRef spec1 3) (((cfg1.win 3).blk t).view.emb (ix2 (0 : Fin 1) q)) = _
  refine congrArg _ (funext fun a => Fin.ext ?_)
  match a with
  | ⟨0, _⟩ => exact win1_3.rect_emb_val_of_index_zero t (0 : Fin 2) e30 (ix2 (0 : Fin 1) q)
  | ⟨1, _⟩ => show win1_3.index t (1 : Fin 2) * 64 + 1 * q.val = win1_4.index t (1 : Fin 2) * 64 + 1 * q.val; omega

/-- What point t writes back to the output array is block t of the layer's last step of the four
    arrays as the region finds them. -/
theorem flushed1_eq (c : Dev nD) (t : Fin cfg1.N) :
    (dat1 (F := Ideal) V c).flushed 4 t = ((cfg1.win 4).blk t).view.read (Elt Ideal)
      (Cert.Layer.update (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero origin_zero]
  simp only [View.ld_unit_zero (S := S5000x64) origin_zero, View.ld_unit_zero (S := S64x64) origin_zero,
    View.ld_unit_zero (S := S1x64) origin_zero]
  refine funext fun (j : S5000x64.Idx) => ?_
  obtain ⟨p, q, rfl⟩ : ∃ (p : Fin 5000) (q : Fin 64), j = ix2 p q := ⟨j 0, j 1, eq_ix2 j⟩
  exact entry_of_reads (V c (Pipeline.arrRef spec1 0)) (V c (Pipeline.arrRef spec1 1))
    (V c (Pipeline.arrRef spec1 2)) (V c (Pipeline.arrRef spec1 3))
    (iblk1 V c 0 t) (iblk1 V c 1 t) (iblk1 V c 2 t) (iblk1 V c 3 t) p q
    (((cfg1.win 4).blk t).view.emb (ix2 p q))
    (fun k => read_agg1 V c t p q k) (fun k => read_root1 V c t p q k)
    (fun k => read_weight1 V c t p q k) (read_bias1 V c t p q)

/-! ## Region 1: from blocks to the array -/

/-- An index of the output array is in point t's block iff each coordinate is in the block's range. -/
theorem mem_block1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v26).slice (win1_4.rect t)).set ↔ _
  rw [View.set_slice_whole, Rect.mem_set_unit]
  exact Iff.rfl

/-- The ten blocks of 5000 rows tile the 50000 rows: row r is in the block of point r / 5000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, e40, e41⟩ := index_facts1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The first finalize region leaves, in its output array, the layer's last step of the aggregate,
    the root image, the weight matrix and the bias row as the region finds them. -/
theorem h1 (c : Dev nD) :
    (dat1 (F := Ideal) V c).arrAt 4 cfg1.N
      = Cert.Layer.update (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1_eq V c t) cover1

/-! ## Region 3: the same body -/

/-- The second finalize region's body is the first's, operation for operation. -/
theorem payload3_eq (x0 x1 : Vec Ideal S5000x64 .f32) (w : Vec Ideal S64x64 .f32) (r : Vec Ideal S1x64 .f32) :
    k3_pay1 (F := Ideal) x0 x1 w r = k1_pay1 (F := Ideal) x0 x1 w r := rfl

/-- The decided relations between region 3's index maps. -/
theorem index_facts3 : ∀ t : Fin cfg3.N,
      win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## Region 3: each loaded block read where the output block's rectangle says -/

/-- The aggregate's block at point t, entry (p, k), is the aggregate at the output block's row. -/
theorem read_agg3 (c : Dev nD) (t : Fin cfg3.N) (p : Fin 5000) (q k : Fin 64) :
    iblk3 V c 0 t (ix2 p k)
      = (V c (Pipeline.arrRef spec3 0) : FVec Ideal Cert.Layer.Nodes .f32)
          (ix2 ((((cfg3.win 4).blk t).view.emb (ix2 p q)) 0) k) := by
  obtain ⟨e00, e01, -⟩ := index_facts3 t
  show V c (Pipeline.arrRef spec3 0) (((cfg3.win 0).blk t).view.emb (ix2 p k)) = _
  refine congrArg _ (funext fun a => Fin.ext ?_)
  match a with
  | ⟨0, _⟩ => show win3_0.index t (0 : Fin 2) * 5000 + 1 * p.val = win3_4.index t (0 : Fin 2) * 5000 + 1 * p.val; omega
  | ⟨1, _⟩ => show win3_0.index t (1 : Fin 2) * 64 + 1 * k.val = k.val; omega

/-- The root image's block at point t covers the same rows. -/
theorem read_root3 (c : Dev nD) (t : Fin cfg3.N) (p : Fin 5000) (q k : Fin 64) :
    iblk3 V c 1 t (ix2 p k)
      = (V c (Pipeline.arrRef spec3 1) : FVec Ideal Cert.Layer.Nodes .f32)
          (ix2 ((((cfg3.win 4).blk t).view.emb (ix2 p q)) 0) k) := by
  obtain ⟨-, -, e10, e11, -⟩ := index_facts3 t
  show V c (Pipeline.arrRef spec3 1) (((cfg3.win 1).blk t).view.emb (ix2 p k)) = _
  refine congrArg _ (funext fun a => Fin.ext ?_)
  match a with
  | ⟨0, _⟩ => show win3_1.index t (0 : Fin 2) * 5000 + 1 * p.val = win3_4.index t (0 : Fin 2) * 5000 + 1 * p.val; omega
  | ⟨1, _⟩ => show win3_1.index t (1 : Fin 2) * 64 + 1 * k.val = k.val; omega

/-- The weight matrix is loaded whole at every point. -/
theorem read_weight3 (c : Dev nD) (t : Fin cfg3.N) (p : Fin 5000) (q k : Fin 64) :
    iblk3 V c 2 t (ix2 k q)
      = (V c (Pipeline.arrRef spec3 2) : FVec Ideal Cert.Layer.Square .f32)
          (ix2 k ((((cfg3.win 4).blk t).view.emb (ix2 p q)) 1)) := by
  obtain ⟨-, -, -, -, e20, e21, -, -, -, e41⟩ := index_facts3 t
  show V c (Pipeline.arrRef spec3 2) (((cfg3.win 2).blk t).view.emb (ix2 k q)) = _
  refine congrArg _ (funext fun a => Fin.ext ?_)
  match a with
  | ⟨0, _⟩ => show win3_2.index t (0 : Fin 2) * 64 + 1 * k.val = k.val; omega
  | ⟨1, _⟩ => show win3_2.index t (1 : Fin 2) * 64 + 1 * q.val = win3_4.index t (1 : Fin 2) * 64 + 1 * q.val; omega

/-- So is the bias row. -/
theorem read_bias3 (c : Dev nD) (t : Fin cfg3.N) (p : Fin 5000) (q : Fin 64) :
    iblk3 V c 3 t (ix2 (0 : Fin 1) q)
      = (V c (Pipeline.arrRef spec3 3) : FVec Ideal Cert.Layer.Row .f32)
          (ix2 (0 : Fin 1) ((((cfg3.win 4).blk t).view.emb (ix2 p q)) 1)) := by
  obtain ⟨-, -, -, -, -, -, e30, e31, -, e41⟩ := index_facts3 t
  show V c (Pipeline.arrRef spec3 3) (((cfg3.win 3).blk t).view.emb (ix2 (0 : Fin 1) q)) = _
  refine congrArg _ (funext fun a => Fin.ext ?_)
  match a with
  | ⟨0, _⟩ => exact win3_3.rect_emb_val_of_index_zero t (0 : Fin 2) e30 (ix2 (0 : Fin 1) q)
  | ⟨1, _⟩ => show win3_3.index t (1 : Fin 2) * 64 + 1 * q.val = win3_4.index t (1 : Fin 2) * 64 + 1 * q.val; omega

/-- What point t writes back to the output array is block t of the layer's last step of the four
    arrays as the region finds them. -/
theorem flushed3_eq (c : Dev nD) (t : Fin cfg3.N) :
    (dat3 (F := Ideal) V c).flushed 4 t = ((cfg3.win 4).blk t).view.read (Elt Ideal)
      (Cert.Layer.update (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero origin_zero]
  simp only [View.ld_unit_zero (S := S5000x64) origin_zero, View.ld_unit_zero (S := S64x64) origin_zero,
    View.ld_unit_zero (S := S1x64) origin_zero]
  refine funext fun (j : S5000x64.Idx) => ?_
  obtain ⟨p, q, rfl⟩ : ∃ (p : Fin 5000) (q : Fin 64), j = ix2 p q := ⟨j 0, j 1, eq_ix2 j⟩
  refine Eq.trans (congrFun (payload3_eq (iblk3 V c 0 t) (iblk3 V c 1 t) (iblk3 V c 2 t) (iblk3 V c 3 t)) (ix2 p q)) ?_
  exact entry_of_reads (V c (Pipeline.arrRef spec3 0)) (V c (Pipeline.arrRef spec3 1))
    (V c (Pipeline.arrRef spec3 2)) (V c (Pipeline.arrRef spec3 3))
    (iblk3 V c 0 t) (iblk3 V c 1 t) (iblk3 V c 2 t) (iblk3 V c 3 t) p q
    (((cfg3.win 4).blk t).view.emb (ix2 p q))
    (fun k => read_agg3 V c t p q k) (fun k => read_root3 V c t p q k)
    (fun k => read_weight3 V c t p q k) (read_bias3 V c t p q)

/-! ## Region 3: from blocks to the array -/

/-- An index of the output array is in point t's block iff each coordinate is in the block's range. -/
theorem mem_block3 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v49).slice (win3_4.rect t)).set ↔ _
  rw [View.set_slice_whole, Rect.mem_set_unit]
  exact Iff.rfl

/-- The ten blocks of 5000 rows tile the 50000 rows: row r is in the block of point r / 5000. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, -, -, e40, e41⟩ := index_facts3 t
  refine ⟨t, flush3_4 t, ?_⟩
  rw [mem_block3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- The second finalize region leaves, in its output array, the layer's last step of the aggregate,
    the root image, the weight matrix and the bias row as the region finds them. -/
theorem h3 (c : Dev nD) :
    (dat3 (F := Ideal) V c).arrAt 4 cfg3.N
      = Cert.Layer.update (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed3_eq V c t) cover3

end Cert.KernelIdeal.Finalize

end
-- ==== Proof.FinalizeValue5.lean ====
/-
  The last step of the third layer, as the tiled region computes it.

  The region walks the 50000 rows in 10 tiles of 5000 rows. On each tile it adds the aggregate's
  tile and the root image's tile entry by entry, multiplies the sum by the 64×64 matrix into a zero
  accumulator, adds the bias row repeated down the 5000 rows, and takes the maximum with zero. The
  recasts of a tile to its own shape and the narrowing of the operands before the product change no
  value over the extended reals. Entry (p, q) of a tile's product is the sum over the 64 shared
  features k of (agg (p, k) + root (p, k)) · w (k, q); row p of tile t is row 5000·t + p of the
  arrays, and the ten tiles cover every row once, so the output array is the whole-array function
  of the layer's specification.
-/
import proofs.«114584_j80015240725026_1_alg».proof.Proof.Gen.KernelIdeal.Frame
import proofs.«114584_j80015240725026_1_alg».proof.Proof.Layer
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Finalize5

open Cert.KernelIdeal Cert.KernelIdeal.Gen Idealize.ShloMosaic Idealize.ShloMosaic.ValueIdx
open Idealize.ShloMosaic.TcCoe Idealize.SL.Sem
open Idealize.ShloMosaic.Pipeline (Dat)

/-! ## A tile's matrix product, entry by entry -/

/-- The left operand's row is the output's row … -/
theorem lhs_row (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and its column the summed feature. -/
theorem lhs_col (i : S5000x64.Idx) (c : dot_S5000x64_S64x64_S5000x64_1_0_0_1_n_n.contr.Idx) : (dot_S5000x64_S64x64_S5000x64_1_0_0_1_n_n.lhsIdx i c 1).val = (c ⟨0, by decide⟩).val :=
  dot_S5000x64_S64x64_S5000x64_1_0_0_1_n_n.lhsIdx_val_of_single rfl i c
/-- The right operand's row is the summed feature … -/
theorem rhs_row (i : S5000x64.Idx) (c : dot_S5000x64_S64x64_S5000x64_1_0_0_1_n_n.contr.Idx) : (dot_S5000x64_S64x64_S5000x64_1_0_0_1_n_n.rhsIdx i c 0).val = (c ⟨0, by decide⟩).val :=
  dot_S5000x64_S64x64_S5000x64_1_0_0_1_n_n.rhsIdx_val_of_single rfl i c
/-- … and its column the output's column. -/
theorem rhs_col (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product's left operand is read at the output's row and the summed feature. -/
theorem lhs_at (p : Fin 5000) (q k : Fin 64) :
    dot_S5000x64_S64x64_S5000x64_1_0_0_1_n_n.lhsIdx (ix2 p q) ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  refine funext fun a => Fin.ext ?_
  match a with
  | ⟨0, _⟩ => exact lhs_row _ _
  | ⟨1, _⟩ => exact (lhs_col _ _).trans hk

/-- The product's right operand is read at the summed feature and the output's column. -/
theorem rhs_at (p : Fin 5000) (q k : Fin 64) :
    dot_S5000x64_S64x64_S5000x64_1_0_0_1_n_n.rhsIdx (ix2 p q) ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  refine funext fun a => Fin.ext ?_
  match a with
  | ⟨0, _⟩ => exact (rhs_row _ _).trans hk
  | ⟨1, _⟩ => exact rhs_col _ _

/-- A tile's product into a zero accumulator: entry (p, q) is the sum over the 64 shared features. -/
theorem tile_product {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant S5000x64 .f32 0x00000000#32) (ix2 p q)
      = ∑ k : Fin 64, x (ix2 p k) * w (ix2 k q) := by
  rw [Ideal.matmul_constant_zero_apply,
    ← Equiv.sum_comp (contrEquiv1 dot_S5000x64_S64x64_S5000x64_1_0_0_1_n_n 64 rfl rfl).symm]
  refine Finset.sum_congr rfl fun k _ => ?_
  rw [lhs_at, rhs_at]

/-- The bias row repeated down a tile: entry (p, q) is the row's entry q. -/
theorem bias_tile (r : Vec Ideal S1x64 .f32) (p : Fin 5000) (q : Fin 64) :
    broadcastTo S5000x64 (shapeCast S1x64 r shapeCasts_S1x64_S1x64) broadcasts_S1x64_S5000x64 (ix2 p q)
      = r (ix2 (0 : Fin 1) q) := by
  rw [shapeCast_self]
  refine broadcastTo_apply r broadcasts_S1x64_S5000x64 (ix2 p q) (ix2 (0 : Fin 1) q) fun a => ?_
  match a with
  | ⟨0, _⟩ => rfl
  | ⟨1, _⟩ => rfl

/-! ## The body's result on a tile -/

/-- The update on a tile: the sum of the two tiles times the matrix, plus the bias row, clipped below at zero. -/
theorem pay5 (x0 x1 : Vec Ideal S5000x64 .f32) (w : Vec Ideal S64x64 .f32) (r : Vec Ideal S1x64 .f32)
    (p : Fin 5000) (q : Fin 64) :
    k5_pay1 x0 x1 w r (ix2 p q)
      = max ((∑ k : Fin 64, (x0 (ix2 p k) + x1 (ix2 p k)) * w (ix2 k q)) + r (ix2 (0 : Fin 1) q))
          (Ideal.ofBits .f32 0x00000000#32) := by
  unfold k5_pay1
  rw [maximumf_apply, addf_apply, bias_tile, shapeCast_self, shapeCast_self]
  exact congrArg (fun z => max (z + r (ix2 (0 : Fin 1) q)) (Ideal.ofBits .f32 0x00000000#32)) (tile_product _ _ p q)

/-- A tile's update is the whole arrays' at the tile's rows, once the two tiles' rows are the arrays'. -/
theorem tile_update5 (A R : FVec Ideal Cert.Layer.Nodes .f32) (W : FVec Ideal Cert.Layer.Square .f32) (B : FVec Ideal Cert.Layer.Row .f32)
    (x0 x1 : Vec Ideal S5000x64 .f32) (p : Fin 5000) (q : Fin 64) (i : S50000x64.Idx)
    (hx0 : ∀ k : Fin 64, x0 (ix2 p k) = A (ix2 (i 0) k)) (hx1 : ∀ k : Fin 64, x1 (ix2 p k) = R (ix2 (i 0) k)) (hq : i 1 = q) :
    k5_pay1 x0 x1 W B (ix2 p q) = Cert.Layer.update A R W B i := by
  rw [pay5]
  subst hq
  show _ = max ((∑ k : Fin 64, (A (ix2 (i 0) k) + R (ix2 (i 0) k)) * W (ix2 k (i 1))) + B (ix2 (0 : Fin 1) (i 1)))
    (Ideal.ofBits .f32 0x00000000#32)
  exact congrArg (fun z => max (z + B (ix2 (0 : Fin 1) (i 1))) (Ideal.ofBits .f32 0x00000000#32))
    (Finset.sum_congr rfl fun k _ => by rw [hx0 k, hx1 k])

/-! ## From tiles to the array -/

/-- The body's loads and stores start at the tile's corner. -/
theorem origin : (![0, 0] : Fin 2 → Nat) = fun _ => 0 := funext fun a => by fin_cases a <;> rfl

section Region5

variable (V : (c : Dev nD) → (b : Ref sig .tc) → Buf (Elt Ideal) ((c : Thread nD τ).loc b)) (c : Dev nD)

/-- The printed block indices over the ten grid points: the aggregate, the root image and the output are at
    tile t, column block 0; the matrix and the bias row are whole, at block (0, 0). -/
theorem tile_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of tile t of the aggregate is row 5000·t + p of the array. -/
theorem x_tile5_0 (t : Fin cfg5.N) (p : Fin 5000) (k : Fin 64) (r : Fin 50000) (hr : r.val = 5000 * t.val + p.val) :
    (iblk5 V c 0 t : Vec Ideal S5000x64 .f32) (ix2 p k)
      = (V c (Pipeline.arrRef spec5 0) : S50000x64.Idx → EReal) (ix2 r k) := by
  have e := tile_index5 t
  have e0 : win5_0.index t (0 : Fin 2) = t.val := e.1
  have e1 : win5_0.index t (1 : Fin 2) = 0 := e.2.1
  unfold iblk5
  rw [View.read_apply]
  show V c main_v70 _ = V c main_v70 _
  congr 1
  funext a
  apply Fin.ext
  match a with
  | ⟨0, _⟩ => show win5_0.index t (0 : Fin 2) * 5000 + 1 * p.val = r.val; rw [e0, hr]; omega
  | ⟨1, _⟩ => show win5_0.index t (1 : Fin 2) * 64 + 1 * k.val = k.val; rw [e1]; omega

/-- Row p of tile t of the root image is row 5000·t + p of the array. -/
theorem x_tile5_1 (t : Fin cfg5.N) (p : Fin 5000) (k : Fin 64) (r : Fin 50000) (hr : r.val = 5000 * t.val + p.val) :
    (iblk5 V c 1 t : Vec Ideal S5000x64 .f32) (ix2 p k)
      = (V c (Pipeline.arrRef spec5 1) : S50000x64.Idx → EReal) (ix2 r k) := by
  have e := tile_index5 t
  have e0 : win5_1.index t (0 : Fin 2) = t.val := e.2.2.1
  have e1 : win5_1.index t (1 : Fin 2) = 0 := e.2.2.2.1
  unfold iblk5
  rw [View.read_apply]
  show V c main_v52_2 _ = V c main_v52_2 _
  congr 1
  funext a
  apply Fin.ext
  match a with
  | ⟨0, _⟩ => show win5_1.index t (0 : Fin 2) * 5000 + 1 * p.val = r.val; rw [e0, hr]; omega
  | ⟨1, _⟩ => show win5_1.index t (1 : Fin 2) * 64 + 1 * k.val = k.val; rw [e1]; omega

/-- Window 2's block is its whole array at every point. -/
theorem whole5_2 (t : Fin cfg5.N) :
    (iblk5 V c 2 t : Vec Ideal S64x64 .f32) = (V c (Pipeline.arrRef spec5 2) : S64x64.Idx → EReal) := by
  have e := tile_index5 t
  have e0 : win5_2.index t (0 : Fin 2) = 0 := e.2.2.2.2.1
  have e1 : win5_2.index t (1 : Fin 2) = 0 := e.2.2.2.2.2.1
  funext y
  unfold iblk5
  rw [View.read_apply]
  show V c main_arg21 _ = V c main_arg21 y
  congr 1
  funext a
  apply Fin.ext
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- Window 3's block is its whole array at every point. -/
theorem whole5_3 (t : Fin cfg5.N) :
    (iblk5 V c 3 t : Vec Ideal S1x64 .f32) = (V c (Pipeline.arrRef spec5 3) : S1x64.Idx → EReal) := by
  have e := tile_index5 t
  have e0 : win5_3.index t (0 : Fin 2) = 0 := e.2.2.2.2.2.2.1
  have e1 : win5_3.index t (1 : Fin 2) = 0 := e.2.2.2.2.2.2.2.1
  funext y
  unfold iblk5
  rw [View.read_apply]
  show V c main_v71 _ = V c main_v71 y
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- What point t writes back to the output array is tile t of the specification's function. -/
theorem flushed_h5 (t : Fin cfg5.N) :
    (dat5 (F := Ideal) V c).flushed 4 t = ((cfg5.win 4).blk t).view.read (Elt Ideal) (Cert.Layer.update (V c (Pipeline.arrRef spec5 0)) (V c (Pipeline.arrRef spec5 1)) (V c (Pipeline.arrRef spec5 2)) (V c (Pipeline.arrRef spec5 3))) := by
  have e := tile_index5 t
  have e0 : win5_4.index t (0 : Fin 2) = t.val := e.2.2.2.2.2.2.2.2.1
  have e1 : win5_4.index t (1 : Fin 2) = 0 := e.2.2.2.2.2.2.2.2.2
  show (cfg5.win 4).cut (grid5.coords t) ((dat5 V c).after 4 t) = _
  rw [after5_4]
  unfold out5_4
  rw [View.canon_unit_zero origin]
  simp only [View.ld_unit_zero (S := S5000x64) origin, View.ld_unit_zero (S := S64x64) origin, View.ld_unit_zero (S := S1x64) origin]
  funext j
  show k5_pay1 (iblk5 V c 0 t) (iblk5 V c 1 t) (iblk5 V c 2 t) (iblk5 V c 3 t) j = (Cert.Layer.update (V c (Pipeline.arrRef spec5 0)) (V c (Pipeline.arrRef spec5 1)) (V c (Pipeline.arrRef spec5 2)) (V c (Pipeline.arrRef spec5 3))) (((cfg5.win 4).blk t).view.emb j)
  rw [whole5_2 V c t, whole5_3 V c t]
  refine (congrArg _ (eq_ix2 (j : S5000x64.Idx))).trans (tile_update5 _ _ _ _ _ _ (j 0) (j 1) _
    (fun k => x_tile5_0 V c t (j 0) k _ ?_) (fun k => x_tile5_1 V c t (j 0) k _ ?_) ?_)
  · show win5_4.index t (0 : Fin 2) * 5000 + 1 * (j 0).val = 5000 * t.val + (j 0).val
    rw [e0]; omega
  · show win5_4.index t (0 : Fin 2) * 5000 + 1 * (j 0).val = 5000 * t.val + (j 0).val
    rw [e0]; omega
  · apply Fin.ext
    show win5_4.index t (1 : Fin 2) * 64 + 1 * (j 1).val = (j 1).val
    rw [e1]; omega

/-- A row and column are in point t's tile of the output iff the row is among the tile's 5000 and the column among the 64. -/
theorem mem_tile_h5 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v72).slice (win5_4.rect t)).set ↔ _
  rw [View.set_slice_whole, Rect.mem_set_unit]
  exact Iff.rfl

/-- Every row is in the tile of the point numbered by the row divided by 5000. -/
theorem cover_h5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : grid5.N = 10 := N_5
  have ht : (i 0).val / 5000 < cfg5.N := by show (i 0).val / 5000 < grid5.N; omega
  have e := tile_index5 ⟨(i 0).val / 5000, ht⟩
  have e0 : win5_4.index ⟨(i 0).val / 5000, ht⟩ (0 : Fin 2) = (i 0).val / 5000 := e.2.2.2.2.2.2.2.2.1
  have e1 : win5_4.index ⟨(i 0).val / 5000, ht⟩ (1 : Fin 2) = 0 := e.2.2.2.2.2.2.2.2.2
  refine ⟨⟨(i 0).val / 5000, ht⟩, flush5_4 _, ?_⟩
  rw [mem_tile_h5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e0]; omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    rw [e1]; omega

/-- The output array after the region is the specification's update of the arrays the region found. -/
theorem h5 : (dat5 (F := Ideal) V c).arrAt 4 cfg5.N = Cert.Layer.update (V c (Pipeline.arrRef spec5 0)) (V c (Pipeline.arrRef spec5 1)) (V c (Pipeline.arrRef spec5 2)) (V c (Pipeline.arrRef spec5 3)) :=
  (dat5 (F := Ideal) V c).arrAt_eq_of_cover 4 (Cert.Layer.update (V c (Pipeline.arrRef spec5 0)) (V c (Pipeline.arrRef spec5 1)) (V c (Pipeline.arrRef spec5 2)) (V c (Pipeline.arrRef spec5 3))) (fun t _ => flushed_h5 V c t) (cover_h5)

end Region5

end Cert.KernelIdeal.Finalize5

end
-- ==== Proof.KernelValue.lean ====
/-
  The idealized kernel computes the three-layer network.

  Each of the six tiled regions leaves, in each of its output arrays, a whole-array function of the arrays it
  reads: the project regions the three images of the node array (rows in ten tiles of 5000, each tile the
  same rows of the product), the finalize regions the layer's last step. Put into the reading of the run
  buffer by buffer, layer after layer, the last boundary's contents at the result buffer are the network of
  the argument arrays as launched; and the run ends with the result buffer at those contents.
-/
import proofs.«114584_j80015240725026_1_alg».proof.Proof.KernelRun
import proofs.«114584_j80015240725026_1_alg».proof.Proof.KernelNet2
import proofs.«114584_j80015240725026_1_alg».proof.Proof.KernelNet3
import proofs.«114584_j80015240725026_1_alg».proof.Proof.ProjectValue
import proofs.«114584_j80015240725026_1_alg».proof.Proof.ProjectValue4
import proofs.«114584_j80015240725026_1_alg».proof.Proof.FinalizeValue
import proofs.«114584_j80015240725026_1_alg».proof.Proof.FinalizeValue5

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last boundary's contents at the result buffer: three layers on the launch contents of the arguments. -/
theorem result (c : Dev nD) : W12 m ρ c (Proc.devRef .tc main_v72) = Cert.Net.layer (Cert.Net.layer (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg1)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [Chain.W12_main_v72 m ρ c Project4.a4 Project4.b4 Project4.root4 Finalize5.h5,
    Chain.W8_main_v49 m ρ c Project.a2 Project.b2 Project.root2 Finalize.h3,
    Chain.W4_main_v26 m ρ c Project.a0 Project.b0 Project.root0 Finalize.h1]

/-- Every weakly fair execution of the idealized kernel terminates without a fault, with the result buffer at
    the network of the argument arrays and the argument arrays as launched. -/
theorem run : θ_run defs (onTc (τ := τ) (main (F := Ideal))) ⟨m, fun _ => 0, ρ⟩ (fun r => ∀ c : Dev nD,
      r.2.mem ((c.tc : Thread nD τ).loc main_v72) = Cert.Net.layer (Cert.Net.layer (Cert.Net.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (result m ρ c), (h c).2⟩) (run_result m ρ)

end Cert.KernelIdeal.Result

end
-- ==== Proof.RefNet.lean ====
/-
  The reference program computes the three-layer network.

  The reference's result is one composed term of host operations on the argument arrays. Read at an
  entry, each of its matrix products is the plain sum over the 64 shared features of row times
  column, each bias broadcast repeats the bias row on every one of the 50000 rows, and the last step
  of a layer is the maximum with the zero array. The edge step (row lookups, subtraction, summation
  at the destinations) is left exactly as the host operations spell it. Read so, one layer of the
  term is `Cert.Net.layer` of the node array, the edge list and the layer's seven parameter arrays,
  and the whole term is three such layers, one after another, on the same edge list.
-/
import proofs.«114584_j80015240725026_1_alg».proof.Proof.Gen.ReferenceIdeal.Read
import proofs.«114584_j80015240725026_1_alg».proof.Proof.Net
import Idealize.ShloMosaic.PureOps.Ideal.Laws
import Idealize.ShloMosaic.Lib.ValueIdx
import Idealize.ShloMosaic.Lib.Pipeline.Value

noncomputable section

open scoped BigOperators

namespace Cert.RefNet

open Idealize.ShloMosaic Idealize.ShloMosaic.ValueIdx Cert.ReferenceIdeal Cert.ReferenceIdeal.Gen

/-! ## The matrix steps, array by array -/

/-- For entry `i` of a product and shared feature `k`, the left factor sits at (row of `i`, `k`). -/
theorem left_index (i : S50000x64.Idx) (k : Fin 64) : Read.lidx_main_v4 i k = ix2 (i 0) k :=
  funext fun a => Fin.ext (by match a with | ⟨0, _⟩ => rfl | ⟨1, _⟩ => rfl)

/-- For entry `i` of a product and shared feature `k`, the right factor sits at (`k`, column of `i`). -/
theorem right_index (i : S50000x64.Idx) (k : Fin 64) : Read.ridx_main_v4 i k = ix2 k (i 1) :=
  funext fun a => Fin.ext (by match a with | ⟨0, _⟩ => rfl | ⟨1, _⟩ => rfl)

/-- The host's product of a node array with a 64×64 matrix is the sum over the shared feature. -/
theorem product_eq (x : FVec Ideal S50000x64 .f32) (w : FVec Ideal S64x64 .f32) :
    Host.dotGeneral (F := Ideal) dot_S50000x64_S64x64_S50000x64_1_0_0_1_n_n none x w = Cert.Layer.linear x w := by
  funext i
  refine (Read.val_main_v4_apply x w i).trans ?_
  unfold Cert.Layer.linear
  exact Finset.sum_congr rfl fun k _ => by rw [left_index, right_index]; rfl

/-- A bias row broadcast over the 50000 rows: entry (r, j) is entry (0, j) of the row. -/
theorem row_apply (r : FVec Ideal S1x64 .f32) (i : S50000x64.Idx) :
    broadcastInDim S50000x64 ![0, 1] bcast_S1x64_S50000x64_0_1 r i = r (ix2 (0 : Fin 1) (i 1)) :=
  broadcastInDim_apply _ bcast_S1x64_S50000x64_0_1 r i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- Product plus broadcast bias row. -/
theorem affine_eq (x : FVec Ideal S50000x64 .f32) (w : FVec Ideal S64x64 .f32) (r : FVec Ideal S1x64 .f32) :
    addf (Host.dotGeneral (F := Ideal) dot_S50000x64_S64x64_S50000x64_1_0_0_1_n_n none x w)
      (broadcastInDim S50000x64 ![0, 1] bcast_S1x64_S50000x64_0_1 r) = Cert.Layer.affine x w r := by
  rw [product_eq]
  funext i
  show Cert.Layer.linear x w i + broadcastInDim S50000x64 ![0, 1] bcast_S1x64_S50000x64_0_1 r i = _
  rw [row_apply]
  rfl

/-- The layer's last step: aggregate plus root image, product, bias row, maximum with the zero array. -/
theorem update_eq (agg root : FVec Ideal S50000x64 .f32) (w : FVec Ideal S64x64 .f32) (r : FVec Ideal S1x64 .f32) :
    maximumf (addf (Host.dotGeneral (F := Ideal) dot_S50000x64_S64x64_S50000x64_1_0_0_1_n_n none (addf agg root) w)
        (broadcastInDim S50000x64 ![0, 1] bcast_S1x64_S50000x64_0_1 r))
      (broadcastInDim S50000x64 ![] bcast_S_S50000x64 (constant (F := Ideal) S_ .f32 0x00000000#32))
      = Cert.Layer.update agg root w r := by
  rw [product_eq]
  funext i
  show max (Cert.Layer.linear (addf agg root) w i + broadcastInDim S50000x64 ![0, 1] bcast_S1x64_S50000x64_0_1 r i)
      (Ideal.ofBits .f32 0x00000000#32) = _
  rw [row_apply]
  rfl

/-! ## One layer of the reference's term -/

/-- One layer as the reference spells it: the three products (two with a broadcast bias row), the
    edge step on the first two, the aggregate plus the third, the last product and bias row, and the
    maximum with the zero array. -/
def refLayer (x : FVec Ideal S50000x64 .f32) (ei : IVec S2x800000 32)
    (w1 : FVec Ideal S64x64 .f32) (b1 : FVec Ideal S64 .f32) (w2 w3 : FVec Ideal S64x64 .f32) (b3 : FVec Ideal S64 .f32)
    (wl : FVec Ideal S64x64 .f32) (bl : FVec Ideal S64 .f32) : FVec Ideal S50000x64 .f32 :=
  maximumf (addf (Host.dotGeneral (F := Ideal) dot_S50000x64_S64x64_S50000x64_1_0_0_1_n_n none
        (addf (Cert.Net.edge
            (addf (Host.dotGeneral (F := Ideal) dot_S50000x64_S64x64_S50000x64_1_0_0_1_n_n none x w1)
              (broadcastInDim S50000x64 ![0, 1] bcast_S1x64_S50000x64_0_1 (Cert.Net.row b1)))
            (Host.dotGeneral (F := Ideal) dot_S50000x64_S64x64_S50000x64_1_0_0_1_n_n none x w2) ei)
          (addf (Host.dotGeneral (F := Ideal) dot_S50000x64_S64x64_S50000x64_1_0_0_1_n_n none x w3)
            (broadcastInDim S50000x64 ![0, 1] bcast_S1x64_S50000x64_0_1 (Cert.Net.row b3)))) wl)
      (broadcastInDim S50000x64 ![0, 1] bcast_S1x64_S50000x64_0_1 (Cert.Net.row bl)))
    (broadcastInDim S50000x64 ![] bcast_S_S50000x64 (constant (F := Ideal) S_ .f32 0x00000000#32))

/-- The reference's layer is the layer of the specification. -/
theorem refLayer_eq (x : FVec Ideal S50000x64 .f32) (ei : IVec S2x800000 32)
    (w1 : FVec Ideal S64x64 .f32) (b1 : FVec Ideal S64 .f32) (w2 w3 : FVec Ideal S64x64 .f32) (b3 : FVec Ideal S64 .f32)
    (wl : FVec Ideal S64x64 .f32) (bl : FVec Ideal S64 .f32) :
    refLayer x ei w1 b1 w2 w3 b3 wl bl = Cert.Net.layer x ei w1 b1 w2 w3 b3 wl bl := by
  unfold refLayer Cert.Net.layer
  rw [update_eq, affine_eq, affine_eq, product_eq]

/-! ## The whole term -/

set_option maxRecDepth 8192 in
set_option maxHeartbeats 4000000 in
/-- The reference's result is its layer three times over, each layer on the same edge list with its
    own seven parameter arrays. -/
theorem result_layers (m : (ℓ : Loc nD τ sig) → Buf (Elt Ideal) ℓ) (c : Dev nD) :
    Cert.ReferenceIdeal.Value.res_main_v102 (F := Ideal) m c
      = refLayer (refLayer (refLayer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)))
          (m ((c.tc : Thread nD τ).loc main_arg1))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)))
        (m ((c.tc : Thread nD τ).loc main_arg1))
        (m ((c.tc : Thread nD τ).loc main_arg16)) (m ((c.tc : Thread nD τ).loc main_arg17)) (m ((c.tc : Thread nD τ).loc main_arg18))
        (m ((c.tc : Thread nD τ).loc main_arg19)) (m ((c.tc : Thread nD τ).loc main_arg20)) (m ((c.tc : Thread nD τ).loc main_arg21))
        (m ((c.tc : Thread nD τ).loc main_arg22)) := by
  unfold Cert.ReferenceIdeal.Value.res_main_v102
  rfl

/-- The reference's result is the three-layer network of the argument arrays. -/
theorem result_eq (m : (ℓ : Loc nD τ sig) → Buf (Elt Ideal) ℓ) (c : Dev nD) :
    Cert.ReferenceIdeal.Value.res_main_v102 (F := Ideal) m c
      = Cert.Net.layer (Cert.Net.layer (Cert.Net.layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)))
          (m ((c.tc : Thread nD τ).loc main_arg1))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)))
        (m ((c.tc : Thread nD τ).loc main_arg1))
        (m ((c.tc : Thread nD τ).loc main_arg16)) (m ((c.tc : Thread nD τ).loc main_arg17)) (m ((c.tc : Thread nD τ).loc main_arg18))
        (m ((c.tc : Thread nD τ).loc main_arg19)) (m ((c.tc : Thread nD τ).loc main_arg20)) (m ((c.tc : Thread nD τ).loc main_arg21))
        (m ((c.tc : Thread nD τ).loc main_arg22)) := by
  rw [result_layers, refLayer_eq, refLayer_eq, refLayer_eq]

end Cert.RefNet

end
-- ==== Proof.lean ====
/-
  A three-layer graph network, tiled, against its plain reference: the certificate's five claims.

  Both programs compute, three times over on one edge list, the layer "three images of the node array under
  64×64 matrices, two of them with a bias; messages along the edges (a source's first image minus a
  destination's second) summed at their destinations; the sum plus the third image, times a fourth matrix,
  plus a bias, clipped below at zero". The kernel computes the matrix steps in two tiled regions per layer, ten
  tiles of 5000 rows each, and leaves the edge step to the same host operations the reference uses; the
  reference computes the matrix steps as host products. Over the extended reals a change of float format is
  the identity and a matrix product's entry is the plain sum over the 64 shared features, so every region's
  output is the same whole-array function of its inputs as the reference's host product, and the edge step is
  the same function on both sides. No law that could fail at an infinity is used — only the reading of each
  product as that sum —, so the finiteness of the inputs is never opened.

  The kernel's two frames are its generated frame certificates (six regions among host operations, every body
  run once per grid point); the reference's frame is its run with the result forgotten; the idealization
  rewrote nothing, so it preserves trivially; and the two idealized runs end at one network of the argument
  arrays (`Cert.KernelIdeal.Result.run`, `Cert.RefNet.result_eq`).
-/
import proofs.«114584_j80015240725026_1_alg».proof.Defs
import proofs.«114584_j80015240725026_1_alg».proof.Proof.Gen.Kernel
import proofs.«114584_j80015240725026_1_alg».proof.Proof.Gen.Kernel.Skeleton
import proofs.«114584_j80015240725026_1_alg».proof.Proof.Gen.Kernel.Launch
import proofs.«114584_j80015240725026_1_alg».proof.Proof.Gen.Kernel.Points
import proofs.«114584_j80015240725026_1_alg».proof.Proof.Gen.Kernel.Frame
import proofs.«114584_j80015240725026_1_alg».proof.Proof.Gen.KernelIdeal
import proofs.«114584_j80015240725026_1_alg».proof.Proof.Gen.KernelIdeal.Skeleton
import proofs.«114584_j80015240725026_1_alg».proof.Proof.Gen.KernelIdeal.Launch
import proofs.«114584_j80015240725026_1_alg».proof.Proof.Gen.KernelIdeal.Points
import proofs.«114584_j80015240725026_1_alg».proof.Proof.Gen.KernelIdeal.Frame
import proofs.«114584_j80015240725026_1_alg».proof.Proof.Gen.ReferenceIdeal
import proofs.«114584_j80015240725026_1_alg».proof.Proof.Gen.ReferenceIdeal.Read
import proofs.«114584_j80015240725026_1_alg».proof.Proof.Gen.Pre_finite_inputs
import proofs.«114584_j80015240725026_1_alg».proof.Proof.KernelValue
import proofs.«114584_j80015240725026_1_alg».proof.Proof.RefNet
import Idealize.ShloMosaic.Adequacy
import Idealize.ShloMosaic.Init

noncomputable section

namespace Cert.Proof

open Idealize.ShloMosaic Idealize.SL.Sem

/-- The word-level kernel runs, and its arguments end as launched. -/
theorem frame_kernel : Cert.frame_Kernel := fun m ρ _ => Cert.Kernel.Gen.frame m ρ

/-- The idealized kernel runs, and its arguments end as launched. -/
theorem frame_kernel_ideal : Cert.frame_KernelIdeal := fun m ρ _ => Cert.KernelIdeal.Gen.frame m ρ

/-- The idealized reference runs, and its arguments end as launched: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- From memories agreeing on the arguments, the idealized kernel and the idealized reference both end with
    the three-layer network of those arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22⟩ := hagree c
  rw [Cert.RefNet.result_eq, e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
